-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x4096 : Shape := ⟨2, ![8, 4096]⟩
abbrev S64x1792x512 : Shape := ⟨3, ![64, 1792, 512]⟩
abbrev S64x512x512 : Shape := ⟨3, ![64, 512, 512]⟩
abbrev S64x512x1792 : Shape := ⟨3, ![64, 512, 1792]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S64x1792x512 : S_.BroadcastsInDim S64x1792x512 (![] : Fin 0 → Fin S64x1792x512.rank)
  reducesTo_S64x1792x512_S_d0_1_2 : S64x1792x512.ReducesTo [0, 1, 2] S_
  bcast_S_S64x512x512 : S_.BroadcastsInDim S64x512x512 (![] : Fin 0 → Fin S64x512x512.rank)
  reducesTo_S64x512x512_S_d0_1_2 : S64x512x512.ReducesTo [0, 1, 2] S_
  bcast_S_S64x512x1792 : S_.BroadcastsInDim S64x512x1792 (![] : Fin 0 → Fin S64x512x1792.rank)
  reducesTo_S64x512x1792_S_d0_1_2 : S64x512x1792.ReducesTo [0, 1, 2] S_

variable [Facts]

def fn_part1 {F : FTy → Type} [FloatOps F] (main_v13 : IVec S_ 1) (main_v16 : IVec S64x512x1792 1) : IVec S_ 1 :=
  let main_c_5 : IVec S_ 1 := constantI S_ 1 1#1
  let main_v17 : IVec S_ 1 := (fun x v => Host.reduce IntOp.andi x v reducesTo_S64x512x1792_S_d0_1_2 h_S_) main_v16 main_c_5
  let main_v18 : IVec S_ 1 := andi main_v13 main_v17
  main_v18

def fn {F : FTy → Type} [FloatOps F] (main_arg0 : FVec F S8x4096x512 .f32) (main_arg1 : IVec S8x4096 32) (main_arg2 : FVec F S64x1792x512 .f32) (main_arg3 : FVec F S64x512x512 .f32) (main_arg4 : FVec F S64x512x1792 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S64x1792x512 .f32 := Host.absf main_arg2
  let main_cst_0 : FVec F S_ .f32 := constant S_ .f32 0x7F800000#32
  let main_v5 : FVec F S64x1792x512 .f32 := broadcastInDim S64x1792x512 ![] bcast_S_S64x1792x512 main_cst_0
  let main_v6 : IVec S64x1792x512 1 := cmpf .olt main_v4 main_v5
  let main_c_1 : IVec S_ 1 := constantI S_ 1 1#1
  let main_v7 : IVec S_ 1 := (fun x v => Host.reduce IntOp.andi x v reducesTo_S64x1792x512_S_d0_1_2 h_S_) main_v6 main_c_1
  let main_v8 : IVec S_ 1 := andi main_v3 main_v7
  let main_v9 : FVec F S64x512x512 .f32 := Host.absf main_arg3
  let main_cst_2 : FVec F S_ .f32 := constant S_ .f32 0x7F800000#32
  let main_v10 : FVec F S64x512x512 .f32 := broadcastInDim S64x512x512 ![] bcast_S_S64x512x512 main_cst_2
  let main_v11 : IVec S64x512x512 1 := cmpf .olt main_v9 main_v10
  let main_c_3 : IVec S_ 1 := constantI S_ 1 1#1
  let main_v12 : IVec S_ 1 := (fun x v => Host.reduce IntOp.andi x v reducesTo_S64x512x512_S_d0_1_2 h_S_) main_v11 main_c_3
  let main_v13 : IVec S_ 1 := andi main_v8 main_v12
  let main_v14 : FVec F S64x512x1792 .f32 := Host.absf main_arg4
  let main_cst_4 : FVec F S_ .f32 := constant S_ .f32 0x7F800000#32
  let main_v15 : FVec F S64x512x1792 .f32 := broadcastInDim S64x512x1792 ![] bcast_S_S64x512x1792 main_cst_4
  let main_v16 : IVec S64x512x1792 1 := cmpf .olt main_v14 main_v15
  fn_part1 (F := F) main_v13 main_v16
-- ==== Kernel.lean ====
abbrev S8x4096x512 : Shape := ⟨3, ![8, 4096, 512]⟩
abbrev S8x4096 : Shape := ⟨2, ![8, 4096]⟩
abbrev S64x1792x512 : Shape := ⟨3, ![64, 1792, 512]⟩
abbrev S64x512x512 : Shape := ⟨3, ![64, 512, 512]⟩
abbrev S64x512x1792 : Shape := ⟨3, ![64, 512, 1792]⟩
abbrev S32768 : Shape := ⟨1, ![32768]⟩
abbrev S_ : Shape := ⟨0, ![]⟩
abbrev S32768x1 : Shape := ⟨2, ![32768, 1]⟩
abbrev S1x64 : Shape := ⟨2, ![1, 64]⟩
abbrev S32768x64 : Shape := ⟨2, ![32768, 64]⟩
abbrev S32768x512 : Shape := ⟨2, ![32768, 512]⟩
abbrev S32768x2 : Shape := ⟨2, ![32768, 2]⟩
abbrev S1x512x512 : Shape := ⟨3, ![1, 512, 512]⟩
abbrev S1x1792x512 : Shape := ⟨3, ![1, 1792, 512]⟩
abbrev S1x512x1792 : Shape := ⟨3, ![1, 512, 1792]⟩
abbrev S512x512 : Shape := ⟨2, ![512, 512]⟩
abbrev S1792x512 : Shape := ⟨2, ![1792, 512]⟩
abbrev S512x1792 : Shape := ⟨2, ![512, 1792]⟩

abbrev nBuf : Space → Nat
  | .hbm => 120
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x4096, .i32⟩
  | .hbm, ⟨2, _⟩ => ⟨S64x1792x512, .f32⟩
  | .hbm, ⟨3, _⟩ => ⟨S64x512x512, .f32⟩
  | .hbm, ⟨4, _⟩ => ⟨S64x512x1792, .f32⟩
  | .hbm, ⟨5, _⟩ => ⟨S32768, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S_, .i1⟩
  | .hbm, ⟨22, _⟩ => ⟨S32768, .i1⟩
  | .hbm, ⟨23, _⟩ => ⟨S32768, .i1⟩
  | .hbm, ⟨24, _⟩ => ⟨S32768, .i1⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S_, .i1⟩
  | .hbm, ⟨44, _⟩ => ⟨S32768, .i1⟩
  | .hbm, ⟨45, _⟩ => ⟨S32768, .i1⟩
  | .hbm, ⟨46, _⟩ => ⟨S32768, .i1⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S1x64, .i32⟩
  | .hbm, ⟨52, _⟩ => ⟨S32768x64, .i32⟩
  | .hbm, ⟨53, _⟩ => ⟨S32768x64, .i32⟩
  | .hbm, ⟨54, _⟩ => ⟨S32768x64, .i1⟩
  | .hbm, ⟨55, _⟩ => ⟨S32768x64, .i32⟩
  | .hbm, ⟨56, _⟩ => ⟨S_, .i32⟩
  | .hbm, ⟨57, _⟩ => ⟨S_, .i32⟩
  | .hbm, ⟨58, _⟩ => ⟨S32768x64, .i32⟩
  | .hbm, ⟨59, _⟩ => ⟨S32768x64, .i32⟩
  | .hbm, ⟨60, _⟩ => ⟨S_, .i32⟩
  | .hbm, ⟨61, _⟩ => ⟨S32768, .i32⟩
  | .hbm, ⟨62, _⟩ => ⟨S_, .i32⟩
  | .hbm, ⟨63, _⟩ => ⟨S32768, .i32⟩
  | .hbm, ⟨64, _⟩ => ⟨S32768, .i32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S32768x512, .f32⟩
  | .hbm, ⟨69, _⟩ => ⟨S_, .i32⟩
  | .hbm, ⟨70, _⟩ => ⟨S_, .i32⟩
  | .hbm, ⟨71, _⟩ => ⟨S32768, .i32⟩
  | .hbm, ⟨72, _⟩ => ⟨S32768, .i32⟩
  | .hbm, ⟨73, _⟩ => ⟨S_, .f32⟩
  | .hbm, ⟨74, _⟩ => ⟨S64x512x512, .f32⟩
  | .hbm, ⟨75, _⟩ => ⟨S_, .i32⟩
  | .hbm, ⟨76, _⟩ => ⟨S32768, .i32⟩
  | .hbm, ⟨77, _⟩ => ⟨S32768, .i1⟩
  | .hbm, ⟨78, _⟩ => ⟨S_, .i32⟩
  | .hbm, ⟨79, _⟩ => ⟨S32768, .i32⟩
  | .hbm, ⟨80, _⟩ => ⟨S32768, .i32⟩
  | .hbm, ⟨81, _⟩ => ⟨S32768, .i32⟩
  | .hbm, ⟨82, _⟩ => ⟨S_, .i32⟩
  | .hbm, ⟨83, _⟩ => ⟨S32768, .i32⟩
  | .hbm, ⟨84, _⟩ => ⟨S32768, .i1⟩
  | .hbm, ⟨85, _⟩ => ⟨S_, .i32⟩
  | .hbm, ⟨86, _⟩ => ⟨S32768, .i32⟩
  | .hbm, ⟨87, _⟩ => ⟨S32768, .i32⟩
  | .hbm, ⟨88, _⟩ => ⟨S32768, .i32⟩
  | .hbm, ⟨89, _⟩ => ⟨S32768x1, .i32⟩
  | .hbm, ⟨90, _⟩ => ⟨S32768x1, .i32⟩
  | .hbm, ⟨91, _⟩ => ⟨S32768x2, .i32⟩
  | .hbm, ⟨92, _⟩ => ⟨S64x512x512, .f32⟩
  | .hbm, ⟨93, _⟩ => ⟨S64x512x512, .f32⟩
  | .hbm, ⟨94, _⟩ => ⟨S_, .i32⟩
  | .hbm, ⟨95, _⟩ => ⟨S32768, .i32⟩
  | .hbm, ⟨96, _⟩ => ⟨S32768, .i32⟩
  | .hbm, ⟨97, _⟩ => ⟨S_, .i32⟩
  | .hbm, ⟨98, _⟩ => ⟨S32768, .i32⟩
  | .hbm, ⟨99, _⟩ => ⟨S32768, .i1⟩
  | .hbm, ⟨100, _⟩ => ⟨S_, .i32⟩
  | .hbm, ⟨101, _⟩ => ⟨S32768, .i32⟩
  | .hbm, ⟨102, _⟩ => ⟨S32768, .i32⟩
  | .hbm, ⟨103, _⟩ => ⟨S32768, .i32⟩
  | .hbm, ⟨104, _⟩ => ⟨S_, .i32⟩
  | .hbm, ⟨105, _⟩ => ⟨S32768, .i32⟩
  | .hbm, ⟨106, _⟩ => ⟨S32768, .i1⟩
  | .hbm, ⟨107, _⟩ => ⟨S_, .i32⟩
  | .hbm, ⟨108, _⟩ => ⟨S32768, .i32⟩
  | .hbm, ⟨109, _⟩ => ⟨S32768, .i32⟩
  | .hbm, ⟨110, _⟩ => ⟨S32768, .i32⟩
  | .hbm, ⟨111, _⟩ => ⟨S32768x1, .i32⟩
  | .hbm, ⟨112, _⟩ => ⟨S32768x1, .i32⟩
  | .hbm, ⟨113, _⟩ => ⟨S32768x2, .i32⟩
  | .hbm, ⟨114, _⟩ => ⟨S32768x512, .f32⟩
  | .hbm, ⟨115, _⟩ => ⟨S32768x1, .i1⟩
  | .hbm, ⟨116, _⟩ => ⟨S32768x1, .f32⟩
  | .hbm, ⟨117, _⟩ => ⟨S32768x512, .f32⟩
  | .hbm, ⟨118, _⟩ => ⟨S32768x512, .f32⟩
  | .hbm, ⟨119, _⟩ => ⟨S8x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x1792x512, .f32⟩
  | .local _ .vmem, ⟨3, _⟩ => ⟨S1x1792x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1792, .f32⟩
  | .local _ .vmem, ⟨7, _⟩ => ⟨S1x512x1792, .f32⟩
  | .local _ .vmem, ⟨8, _⟩ => ⟨S1x512x512, .f32⟩
  | .local _ .vmem, ⟨9, _⟩ => ⟨S1x512x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_call0_v0 : Ref sig .tc := ⟨.hbm, 7, rfl⟩
abbrev main_call0_call0_c : Ref sig .tc := ⟨.hbm, 8, rfl⟩
abbrev main_call0_call0_v1 : Ref sig .tc := ⟨.hbm, 9, rfl⟩
abbrev main_call0_call0_c_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_c_1 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_c_2 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_c_3 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_call0_v12 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_v1 : Ref sig .tc := ⟨.hbm, 27, rfl⟩
abbrev main_call0_c_0 : Ref sig .tc := ⟨.hbm, 28, rfl⟩
abbrev main_call0_call1_v0 : Ref sig .tc := ⟨.hbm, 29, rfl⟩
abbrev main_call0_call1_c : Ref sig .tc := ⟨.hbm, 30, rfl⟩
abbrev main_call0_call1_v1 : Ref sig .tc := ⟨.hbm, 31, rfl⟩
abbrev main_call0_call1_c_0 : Ref sig .tc := ⟨.hbm, 32, rfl⟩
abbrev main_call0_call1_v2 : Ref sig .tc := ⟨.hbm, 33, rfl⟩
abbrev main_call0_call1_v3 : Ref sig .tc := ⟨.hbm, 34, rfl⟩
abbrev main_call0_call1_v4 : Ref sig .tc := ⟨.hbm, 35, rfl⟩
abbrev main_call0_call1_c_1 : Ref sig .tc := ⟨.hbm, 36, rfl⟩
abbrev main_call0_call1_v5 : Ref sig .tc := ⟨.hbm, 37, rfl⟩
abbrev main_call0_call1_v6 : Ref sig .tc := ⟨.hbm, 38, rfl⟩
abbrev main_call0_call1_c_2 : Ref sig .tc := ⟨.hbm, 39, rfl⟩
abbrev main_call0_call1_v7 : Ref sig .tc := ⟨.hbm, 40, rfl⟩
abbrev main_call0_call1_v8 : Ref sig .tc := ⟨.hbm, 41, rfl⟩
abbrev main_call0_call1_c_3 : Ref sig .tc := ⟨.hbm, 42, rfl⟩
abbrev main_call0_call1_v9 : Ref sig .tc := ⟨.hbm, 43, rfl⟩
abbrev main_call0_call1_v10 : Ref sig .tc := ⟨.hbm, 44, rfl⟩
abbrev main_call0_call1_v11 : Ref sig .tc := ⟨.hbm, 45, rfl⟩
abbrev main_call0_call1_v12 : Ref sig .tc := ⟨.hbm, 46, rfl⟩
abbrev main_call0_call1_v13 : Ref sig .tc := ⟨.hbm, 47, rfl⟩
abbrev main_call0_call1_v14 : Ref sig .tc := ⟨.hbm, 48, rfl⟩
abbrev main_call0_v2 : Ref sig .tc := ⟨.hbm, 49, rfl⟩
abbrev main_call0_call2_v0 : Ref sig .tc := ⟨.hbm, 50, rfl⟩
abbrev main_call0_call2_v1 : Ref sig .tc := ⟨.hbm, 51, rfl⟩
abbrev main_call0_call2_v2 : Ref sig .tc := ⟨.hbm, 52, rfl⟩
abbrev main_call0_call2_v3 : Ref sig .tc := ⟨.hbm, 53, rfl⟩
abbrev main_call0_call2_v4 : Ref sig .tc := ⟨.hbm, 54, rfl⟩
abbrev main_call0_v3 : Ref sig .tc := ⟨.hbm, 55, rfl⟩
abbrev main_call0_call3_call0_c : Ref sig .tc := ⟨.hbm, 56, rfl⟩
abbrev main_call0_call3_call0_v0 : Ref sig .tc := ⟨.hbm, 57, rfl⟩
abbrev main_call0_v4 : Ref sig .tc := ⟨.hbm, 58, rfl⟩
abbrev main_call0_v5 : Ref sig .tc := ⟨.hbm, 59, rfl⟩
abbrev main_call0_c_1 : Ref sig .tc := ⟨.hbm, 60, rfl⟩
abbrev main_call0_v6 : Ref sig .tc := ⟨.hbm, 61, rfl⟩
abbrev main_call0_c_2 : Ref sig .tc := ⟨.hbm, 62, rfl⟩
abbrev main_call0_v7 : Ref sig .tc := ⟨.hbm, 63, rfl⟩
abbrev main_call0_v8 : Ref sig .tc := ⟨.hbm, 64, rfl⟩
abbrev main_call0_c_3 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_4 : Ref sig .tc := ⟨.hbm, 69, rfl⟩
abbrev main_call0_call4_v0 : Ref sig .tc := ⟨.hbm, 70, rfl⟩
abbrev main_call0_call4_v1 : Ref sig .tc := ⟨.hbm, 71, rfl⟩
abbrev main_call0_v12 : Ref sig .tc := ⟨.hbm, 72, rfl⟩
abbrev main_call0_cst : Ref sig .tc := ⟨.hbm, 73, rfl⟩
abbrev main_call0_v13 : Ref sig .tc := ⟨.hbm, 74, rfl⟩
abbrev main_call0_c_5 : Ref sig .tc := ⟨.hbm, 75, rfl⟩
abbrev main_call0_v14 : Ref sig .tc := ⟨.hbm, 76, rfl⟩
abbrev main_call0_v15 : Ref sig .tc := ⟨.hbm, 77, rfl⟩
abbrev main_call0_c_6 : Ref sig .tc := ⟨.hbm, 78, rfl⟩
abbrev main_call0_v16 : Ref sig .tc := ⟨.hbm, 79, rfl⟩
abbrev main_call0_v17 : Ref sig .tc := ⟨.hbm, 80, rfl⟩
abbrev main_call0_v18 : Ref sig .tc := ⟨.hbm, 81, rfl⟩
abbrev main_call0_c_7 : Ref sig .tc := ⟨.hbm, 82, rfl⟩
abbrev main_call0_v19 : Ref sig .tc := ⟨.hbm, 83, rfl⟩
abbrev main_call0_v20 : Ref sig .tc := ⟨.hbm, 84, rfl⟩
abbrev main_call0_c_8 : Ref sig .tc := ⟨.hbm, 85, rfl⟩
abbrev main_call0_v21 : Ref sig .tc := ⟨.hbm, 86, rfl⟩
abbrev main_call0_v22 : Ref sig .tc := ⟨.hbm, 87, rfl⟩
abbrev main_call0_v23 : Ref sig .tc := ⟨.hbm, 88, rfl⟩
abbrev main_call0_v24 : Ref sig .tc := ⟨.hbm, 89, rfl⟩
abbrev main_call0_v25 : Ref sig .tc := ⟨.hbm, 90, rfl⟩
abbrev main_call0_v26 : Ref sig .tc := ⟨.hbm, 91, rfl⟩
abbrev main_call0_v27 : Ref sig .tc := ⟨.hbm, 92, rfl⟩
abbrev main_call0_v28 : Ref sig .tc := ⟨.hbm, 93, rfl⟩
abbrev main_call0_c_9 : Ref sig .tc := ⟨.hbm, 94, rfl⟩
abbrev main_call0_v29 : Ref sig .tc := ⟨.hbm, 95, rfl⟩
abbrev main_call0_v30 : Ref sig .tc := ⟨.hbm, 96, rfl⟩
abbrev main_call0_c_10 : Ref sig .tc := ⟨.hbm, 97, rfl⟩
abbrev main_call0_v31 : Ref sig .tc := ⟨.hbm, 98, rfl⟩
abbrev main_call0_v32 : Ref sig .tc := ⟨.hbm, 99, rfl⟩
abbrev main_call0_c_11 : Ref sig .tc := ⟨.hbm, 100, rfl⟩
abbrev main_call0_v33 : Ref sig .tc := ⟨.hbm, 101, rfl⟩
abbrev main_call0_v34 : Ref sig .tc := ⟨.hbm, 102, rfl⟩
abbrev main_call0_v35 : Ref sig .tc := ⟨.hbm, 103, rfl⟩
abbrev main_call0_c_12 : Ref sig .tc := ⟨.hbm, 104, rfl⟩
abbrev main_call0_v36 : Ref sig .tc := ⟨.hbm, 105, rfl⟩
abbrev main_call0_v37 : Ref sig .tc := ⟨.hbm, 106, rfl⟩
abbrev main_call0_c_13 : Ref sig .tc := ⟨.hbm, 107, rfl⟩
abbrev main_call0_v38 : Ref sig .tc := ⟨.hbm, 108, rfl⟩
abbrev main_call0_v39 : Ref sig .tc := ⟨.hbm, 109, rfl⟩
abbrev main_call0_v40 : Ref sig .tc := ⟨.hbm, 110, rfl⟩
abbrev main_call0_v41 : Ref sig .tc := ⟨.hbm, 111, rfl⟩
abbrev main_call0_v42 : Ref sig .tc := ⟨.hbm, 112, rfl⟩
abbrev main_call0_v43 : Ref sig .tc := ⟨.hbm, 113, rfl⟩
abbrev main_call0_v44 : Ref sig .tc := ⟨.hbm, 114, rfl⟩
abbrev main_call0_v45 : Ref sig .tc := ⟨.hbm, 115, rfl⟩
abbrev main_call0_v46 : Ref sig .tc := ⟨.hbm, 116, rfl⟩
abbrev main_call0_v47 : Ref sig .tc := ⟨.hbm, 117, rfl⟩
abbrev main_call0_v48 : Ref sig .tc := ⟨.hbm, 118, rfl⟩
abbrev main_v0 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1792x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  natLt_1_32 : 1 < 32
  bcast_S_S_ : S_.BroadcastsInDim S_ (![] : Fin 0 → Fin S_.rank)
  reduceWindows_S32768x64_S32768x64_w32768s1p32767_0_w1s1p0_0 : S32768x64.ReduceWindows (![32768, 1] : Fin 2 → Nat) ![1, 1] ![32767, 0] ![0, 0] S32768x64
  h_S_ : 0 < S_.numel
  reducesTo_S32768x64_S32768_d1 : S32768x64.ReducesTo [1] S32768
  shapeCasts_S8x4096x512_S32768x512 : S8x4096x512.ShapeCasts S32768x512
  bcast_S_S64x512x512 : S_.BroadcastsInDim S64x512x512 (![] : Fin 0 → Fin S64x512x512.rank)
  concatenates_S32768x1_S32768x1_S32768x2_d1 : Shape.Concatenates [S32768x1, S32768x1] S32768x2 1
  bcast_S32768x1_S32768x512_0_1 : S32768x1.BroadcastsInDim S32768x512 (![0, 1] : Fin 2 → Fin S32768x512.rank)
  shapeCasts_S32768x512_S8x4096x512 : S32768x512.ShapeCasts S8x4096x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x1792x512_S1x1792x512_0_0_0 : ∀ a, (![0, 0, 0] : Fin 3 → Nat) a + S1x1792x512.size a ≤ S1x1792x512.size a
  h_S1x1792x512 : 0 < S1x1792x512.numel
  shapeCasts_S1x1792x512_S1792x512 : S1x1792x512.ShapeCasts S1792x512
  inb_S1x512x1792_S1x512x1792_0_0_0 : ∀ a, (![0, 0, 0] : Fin 3 → Nat) a + S1x512x1792.size a ≤ S1x512x1792.size a
  h_S1x512x1792 : 0 < S1x512x1792.numel
  shapeCasts_S1x512x1792_S512x1792 : S1x512x1792.ShapeCasts S512x1792
  shapeCasts_S512x512_S1x512x512 : S512x512.ShapeCasts S1x512x512
  scatter_S64x512x512_S32768x2_S32768x512_1_01_01_1_wf : ScatterDims.WF S64x512x512 S32768x2 S32768x512 [1] [0, 1] [0, 1] 1
  gather_S64x512x512_S32768x2_S32768x512_1_01_n_n_01_1_11512_wf : GatherDims.WF S64x512x512 S32768x2 S32768x512 [1] [0, 1] [] [0, 1] [] 1 ![1, 1, 512]
  dot_S512x512_S1792x512_S512x1792_1_1_0_0_n_n_wf : DotDims.WF S512x512 S1792x512 S512x1792 [1] [1] [0] [0] [] []
  dot_S512x1792_S512x1792_S512x512_1_1_0_0_n_n_wf : DotDims.WF S512x1792 S512x1792 S512x512 [1] [1] [0] [0] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1792x512.size a ≤ S64x1792x512.size a
  hwx0_1 : ∀ i : grid0.Coords, EltTy.bits .f32 = 32 ∨ (Rect.block (s := S64x1792x512) S1x1792x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1792.size a ≤ S64x512x1792.size a
  hwx0_3 : ∀ i : grid0.Coords, EltTy.bits .f32 = 32 ∨ (Rect.block (s := S64x512x1792) S1x512x1792.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x512x512.size a
  hwx0_4 : ∀ i : grid0.Coords, EltTy.bits .f32 = 32 ∨ (Rect.block (s := S64x512x512) S1x512x512.size (cc0_transform_4 i) (hinb0_4 i)).WholeWords (EltTy.packing .f32)

variable [Facts₀]

def scatter_S64x512x512_S32768x2_S32768x512_1_01_01_1 : ScatterDims S64x512x512 S32768x2 S32768x512 where
  updateWindowDims := [1]
  insertedWindowDims := [0, 1]
  scatterDimsToOperandDims := [0, 1]
  indexVectorDim := 1
  wf := scatter_S64x512x512_S32768x2_S32768x512_1_01_01_1_wf
def gather_S64x512x512_S32768x2_S32768x512_1_01_n_n_01_1_11512 : GatherDims S64x512x512 S32768x2 S32768x512 where
  offsetDims := [1]
  collapsedSliceDims := [0, 1]
  operandBatchingDims := []
  startIndicesBatchingDims := []
  startIndexMap := [0, 1]
  indexVectorDim := 1
  sliceSizes := ![1, 1, 512]
  wf := gather_S64x512x512_S32768x2_S32768x512_1_01_n_n_01_1_11512_wf
def dot_S512x512_S1792x512_S512x1792_1_1_0_0_n_n : DotDims S512x512 S1792x512 S512x1792 where
  lhsContracting := [1]
  rhsContracting := [1]
  lhsNonContracting := [0]
  rhsNonContracting := [0]
  lhsBatch := []
  rhsBatch := []
  wf := dot_S512x512_S1792x512_S512x1792_1_1_0_0_n_n_wf
def dot_S512x1792_S512x1792_S512x512_1_1_0_0_n_n : DotDims S512x1792 S512x1792 S512x512 where
  lhsContracting := [1]
  rhsContracting := [1]
  lhsNonContracting := [0]
  rhsNonContracting := [0]
  lhsBatch := []
  rhsBatch := []
  wf := dot_S512x1792_S512x1792_S512x512_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_call0_v27) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1792x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512x1792.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v28) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x4096 : Shape := ⟨2, ![8, 4096]⟩
abbrev S64x1792x512 : Shape := ⟨3, ![64, 1792, 512]⟩
abbrev S64x512x512 : Shape := ⟨3, ![64, 512, 512]⟩
abbrev S64x512x1792 : Shape := ⟨3, ![64, 512, 1792]⟩
abbrev S32768 : Shape := ⟨1, ![32768]⟩
abbrev S_ : Shape := ⟨0, ![]⟩
abbrev S32768x1 : Shape := ⟨2, ![32768, 1]⟩
abbrev S1x64 : Shape := ⟨2, ![1, 64]⟩
abbrev S32768x64 : Shape := ⟨2, ![32768, 64]⟩
abbrev S32768x512 : Shape := ⟨2, ![32768, 512]⟩
abbrev S32768x2 : Shape := ⟨2, ![32768, 2]⟩

abbrev nBuf : Space → Nat
  | .hbm => 135
  | .vmem => 0
  | .smem => 0
  | _ => 0

abbrev hbmTy0_0 (i : Nat) : BufTy := match i % 128 with
  | 0 => ⟨S8x4096x512, .f32⟩
  | 1 => ⟨S8x4096, .i32⟩
  | 2 => ⟨S64x1792x512, .f32⟩
  | 3 => ⟨S64x512x512, .f32⟩
  | 4 => ⟨S64x512x1792, .f32⟩
  | 5 => ⟨S32768, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S32768, .i32⟩
  | 13 => ⟨S32768, .i32⟩
  | 14 => ⟨S_, .i32⟩
  | 15 => ⟨S32768, .i32⟩
  | 16 => ⟨S32768, .i1⟩
  | 17 => ⟨S_, .i32⟩
  | 18 => ⟨S32768, .i32⟩
  | 19 => ⟨S32768, .i1⟩
  | 20 => ⟨S_, .i32⟩
  | 21 => ⟨S_, .i1⟩
  | 22 => ⟨S32768, .i1⟩
  | 23 => ⟨S32768, .i1⟩
  | 24 => ⟨S32768, .i1⟩
  | 25 => ⟨S32768, .i32⟩
  | 26 => ⟨S32768, .i32⟩
  | 27 => ⟨S32768, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S32768, .i32⟩
  | 35 => ⟨S32768, .i32⟩
  | 36 => ⟨S_, .i32⟩
  | 37 => ⟨S32768, .i32⟩
  | 38 => ⟨S32768, .i1⟩
  | 39 => ⟨S_, .i32⟩
  | 40 => ⟨S32768, .i32⟩
  | 41 => ⟨S32768, .i1⟩
  | 42 => ⟨S_, .i32⟩
  | 43 => ⟨S_, .i1⟩
  | 44 => ⟨S32768, .i1⟩
  | 45 => ⟨S32768, .i1⟩
  | 46 => ⟨S32768, .i1⟩
  | 47 => ⟨S32768, .i32⟩
  | 48 => ⟨S32768, .i32⟩
  | 49 => ⟨S32768, .i32⟩
  | 50 => ⟨S32768x1, .i32⟩
  | 51 => ⟨S1x64, .i32⟩
  | 52 => ⟨S32768x64, .i32⟩
  | 53 => ⟨S32768x64, .i32⟩
  | 54 => ⟨S32768x64, .i1⟩
  | 55 => ⟨S32768x64, .i32⟩
  | 56 => ⟨S_, .i32⟩
  | 57 => ⟨S_, .i32⟩
  | 58 => ⟨S32768x64, .i32⟩
  | 59 => ⟨S32768x64, .i32⟩
  | 60 => ⟨S_, .i32⟩
  | 61 => ⟨S32768, .i32⟩
  | 62 => ⟨S_, .i32⟩
  | 63 => ⟨S32768, .i32⟩
  | 64 => ⟨S32768, .i32⟩
  | 65 => ⟨S_, .i32⟩
  | 66 => ⟨S32768, .i32⟩
  | 67 => ⟨S32768, .i1⟩
  | 68 => ⟨S32768x512, .f32⟩
  | 69 => ⟨S_, .i32⟩
  | 70 => ⟨S_, .i32⟩
  | 71 => ⟨S32768, .i32⟩
  | 72 => ⟨S32768, .i32⟩
  | 73 => ⟨S_, .f32⟩
  | 74 => ⟨S64x512x512, .f32⟩
  | 75 => ⟨S_, .i32⟩
  | 76 => ⟨S32768, .i32⟩
  | 77 => ⟨S32768, .i1⟩
  | 78 => ⟨S_, .i32⟩
  | 79 => ⟨S32768, .i32⟩
  | 80 => ⟨S32768, .i32⟩
  | 81 => ⟨S32768, .i32⟩
  | 82 => ⟨S_, .i32⟩
  | 83 => ⟨S32768, .i32⟩
  | 84 => ⟨S32768, .i1⟩
  | 85 => ⟨S_, .i32⟩
  | 86 => ⟨S32768, .i32⟩
  | 87 => ⟨S32768, .i32⟩
  | 88 => ⟨S32768, .i32⟩
  | 89 => ⟨S32768x1, .i32⟩
  | 90 => ⟨S32768x1, .i32⟩
  | 91 => ⟨S32768x2, .i32⟩
  | 92 => ⟨S64x512x512, .f32⟩
  | 93 => ⟨S64x512x1792, .f32⟩
  | 94 => ⟨S_, .f32⟩
  | 95 => ⟨S64x512x1792, .f32⟩
  | 96 => ⟨S64x512x1792, .f32⟩
  | 97 => ⟨S64x512x1792, .f32⟩
  | 98 => ⟨S64x512x512, .f32⟩
  | 99 => ⟨S64x512x512, .f32⟩
  | 100 => ⟨S64x512x512, .f32⟩
  | 101 => ⟨S64x512x512, .f32⟩
  | 102 => ⟨S_, .f32⟩
  | 103 => ⟨S64x512x512, .f32⟩
  | 104 => ⟨S64x512x512, .f32⟩
  | 105 => ⟨S_, .f32⟩
  | 106 => ⟨S64x512x512, .f32⟩
  | 107 => ⟨S64x512x512, .f32⟩
  | 108 => ⟨S64x512x512, .f32⟩
  | 109 => ⟨S_, .i32⟩
  | 110 => ⟨S32768, .i32⟩
  | 111 => ⟨S32768, .i32⟩
  | 112 => ⟨S_, .i32⟩
  | 113 => ⟨S32768, .i32⟩
  | 114 => ⟨S32768, .i1⟩
  | 115 => ⟨S_, .i32⟩
  | 116 => ⟨S32768, .i32⟩
  | 117 => ⟨S32768, .i32⟩
  | 118 => ⟨S32768, .i32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768x1, .i32⟩
  | _ => ⟨S8x4096x512, .f32⟩

abbrev hbmTy0_1 (i : Nat) : BufTy := match i % 128 with
  | 0 => ⟨S32768x2, .i32⟩
  | 1 => ⟨S32768x512, .f32⟩
  | 2 => ⟨S32768x1, .i1⟩
  | 3 => ⟨S32768x1, .f32⟩
  | 4 => ⟨S32768x512, .f32⟩
  | 5 => ⟨S32768x512, .f32⟩
  | 6 => ⟨S8x4096x512, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v2 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v3 : Ref sig .tc := ⟨.hbm, 55, rfl⟩
abbrev main_call3_call0_c : Ref sig .tc := ⟨.hbm, 56, rfl⟩
abbrev main_call3_call0_v0 : Ref sig .tc := ⟨.hbm, 57, rfl⟩
abbrev main_v4 : Ref sig .tc := ⟨.hbm, 58, rfl⟩
abbrev main_v5 : Ref sig .tc := ⟨.hbm, 59, rfl⟩
abbrev main_c_1 : Ref sig .tc := ⟨.hbm, 60, rfl⟩
abbrev main_v6 : Ref sig .tc := ⟨.hbm, 61, rfl⟩
abbrev main_c_2 : Ref sig .tc := ⟨.hbm, 62, rfl⟩
abbrev main_v7 : Ref sig .tc := ⟨.hbm, 63, rfl⟩
abbrev main_v8 : Ref sig .tc := ⟨.hbm, 64, rfl⟩
abbrev main_c_3 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_c_4 : Ref sig .tc := ⟨.hbm, 69, rfl⟩
abbrev main_call4_v0 : Ref sig .tc := ⟨.hbm, 70, rfl⟩
abbrev main_call4_v1 : Ref sig .tc := ⟨.hbm, 71, rfl⟩
abbrev main_v12 : Ref sig .tc := ⟨.hbm, 72, rfl⟩
abbrev main_cst : Ref sig .tc := ⟨.hbm, 73, rfl⟩
abbrev main_v13 : Ref sig .tc := ⟨.hbm, 74, rfl⟩
abbrev main_c_5 : Ref sig .tc := ⟨.hbm, 75, rfl⟩
abbrev main_v14 : Ref sig .tc := ⟨.hbm, 76, rfl⟩
abbrev main_v15 : Ref sig .tc := ⟨.hbm, 77, rfl⟩
abbrev main_c_6 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_c_7 : Ref sig .tc := ⟨.hbm, 82, rfl⟩
abbrev main_v19 : Ref sig .tc := ⟨.hbm, 83, rfl⟩
abbrev main_v20 : Ref sig .tc := ⟨.hbm, 84, rfl⟩
abbrev main_c_8 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_call5_cst : Ref sig .tc := ⟨.hbm, 94, rfl⟩
abbrev main_call5_v0 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_cst_9 : Ref sig .tc := ⟨.hbm, 102, rfl⟩
abbrev main_v35 : Ref sig .tc := ⟨.hbm, 103, rfl⟩
abbrev main_v36 : Ref sig .tc := ⟨.hbm, 104, rfl⟩
abbrev main_cst_10 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_c_11 : Ref sig .tc := ⟨.hbm, 109, rfl⟩
abbrev main_v40 : Ref sig .tc := ⟨.hbm, 110, rfl⟩
abbrev main_v41 : Ref sig .tc := ⟨.hbm, 111, rfl⟩
abbrev main_c_12 : Ref sig .tc := ⟨.hbm, 112, rfl⟩
abbrev main_v42 : Ref sig .tc := ⟨.hbm, 113, rfl⟩
abbrev main_v43 : Ref sig .tc := ⟨.hbm, 114, rfl⟩
abbrev main_c_13 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_c_14 : Ref sig .tc := ⟨.hbm, 119, rfl⟩
abbrev main_v47 : Ref sig .tc := ⟨.hbm, 120, rfl⟩
abbrev main_v48 : Ref sig .tc := ⟨.hbm, 121, rfl⟩
abbrev main_c_15 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩

abbrev nD : Nat := 1
abbrev τ : Topo := Topo.v7x

variable {F : FTy → Type} [FloatOps F]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  natLt_1_32 : 1 < 32
  bcast_S_S_ : S_.BroadcastsInDim S_ (![] : Fin 0 → Fin S_.rank)
  reduceWindows_S32768x64_S32768x64_w32768s1p32767_0_w1s1p0_0 : S32768x64.ReduceWindows (![32768, 1] : Fin 2 → Nat) ![1, 1] ![32767, 0] ![0, 0] S32768x64
  h_S_ : 0 < S_.numel
  reducesTo_S32768x64_S32768_d1 : S32768x64.ReducesTo [1] S32768
  shapeCasts_S8x4096x512_S32768x512 : S8x4096x512.ShapeCasts S32768x512
  bcast_S_S64x512x512 : S_.BroadcastsInDim S64x512x512 (![] : Fin 0 → Fin S64x512x512.rank)
  concatenates_S32768x1_S32768x1_S32768x2_d1 : Shape.Concatenates [S32768x1, S32768x1] S32768x2 1
  bcast_S_S64x512x1792 : S_.BroadcastsInDim S64x512x1792 (![] : Fin 0 → Fin S64x512x1792.rank)
  bcast_S32768x1_S32768x512_0_1 : S32768x1.BroadcastsInDim S32768x512 (![0, 1] : Fin 2 → Fin S32768x512.rank)
  shapeCasts_S32768x512_S8x4096x512 : S32768x512.ShapeCasts S8x4096x512
  scatter_S64x512x512_S32768x2_S32768x512_1_01_01_1_wf : ScatterDims.WF S64x512x512 S32768x2 S32768x512 [1] [0, 1] [0, 1] 1
  dot_S64x512x512_S64x1792x512_S64x512x1792_2_2_1_1_0_0_wf : DotDims.WF S64x512x512 S64x1792x512 S64x512x1792 [2] [2] [1] [1] [0] [0]
  dot_S64x512x1792_S64x512x1792_S64x512x512_2_2_1_1_0_0_wf : DotDims.WF S64x512x1792 S64x512x1792 S64x512x512 [2] [2] [1] [1] [0] [0]
  dot_S64x512x512_S64x512x512_S64x512x512_2_2_1_1_0_0_wf : DotDims.WF S64x512x512 S64x512x512 S64x512x512 [2] [2] [1] [1] [0] [0]
  gather_S64x512x512_S32768x2_S32768x512_1_01_n_n_01_1_11512_wf : GatherDims.WF S64x512x512 S32768x2 S32768x512 [1] [0, 1] [] [0, 1] [] 1 ![1, 1, 512]

variable [Facts₀]

def scatter_S64x512x512_S32768x2_S32768x512_1_01_01_1 : ScatterDims S64x512x512 S32768x2 S32768x512 where
  updateWindowDims := [1]
  insertedWindowDims := [0, 1]
  scatterDimsToOperandDims := [0, 1]
  indexVectorDim := 1
  wf := scatter_S64x512x512_S32768x2_S32768x512_1_01_01_1_wf
def dot_S64x512x512_S64x1792x512_S64x512x1792_2_2_1_1_0_0 : DotDims S64x512x512 S64x1792x512 S64x512x1792 where
  lhsContracting := [2]
  rhsContracting := [2]
  lhsNonContracting := [1]
  rhsNonContracting := [1]
  lhsBatch := [0]
  rhsBatch := [0]
  wf := dot_S64x512x512_S64x1792x512_S64x512x1792_2_2_1_1_0_0_wf
def dot_S64x512x1792_S64x512x1792_S64x512x512_2_2_1_1_0_0 : DotDims S64x512x1792 S64x512x1792 S64x512x512 where
  lhsContracting := [2]
  rhsContracting := [2]
  lhsNonContracting := [1]
  rhsNonContracting := [1]
  lhsBatch := [0]
  rhsBatch := [0]
  wf := dot_S64x512x1792_S64x512x1792_S64x512x512_2_2_1_1_0_0_wf
def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf
def gather_S64x512x512_S32768x2_S32768x512_1_01_n_n_01_1_11512 : GatherDims S64x512x512 S32768x2 S32768x512 where
  offsetDims := [1]
  collapsedSliceDims := [0, 1]
  operandBatchingDims := []
  startIndicesBatchingDims := []
  startIndexMap := [0, 1]
  indexVectorDim := 1
  sliceSizes := ![1, 1, 512]
  wf := gather_S64x512x512_S32768x2_S32768x512_1_01_n_n_01_1_11512_wf

class Facts : Prop extends Facts₀ where

variable [Facts]
-- ==== Proof.LibFoldAppend.lean ====
/-
  The fold of a line of host operations over a concatenation.

  `StableHlo.after ops V` is what a device's buffers hold once the operations `ops` have run in order from contents `V`.
  Running `l₁` and then `l₂` is running `l₁ ++ l₂`: the fold over a concatenation is the fold over the second line from the
  fold over the first. This is what lets a long straight-line program be read back one stretch at a time, each stretch from
  the contents the previous one leaves.
-/
import Idealize.ShloMosaic.Lib.StableHlo.Run

noncomputable section

namespace Idealize.ShloMosaic.StableHlo

variable {τ : Topo} {sig : RefSig} {Val : EltTy → Type}

/-- The buffers after `l₁ ++ l₂` are the buffers after `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.RefRun.lean ====
/-
  The reference program's run, read back.

  The reference is a straight line of host operations: the routing (hash of the token id, the token's rank within its
  expert by a running count, the capacity mask, the scatter of the kept token rows into the experts' slots), the experts'
  feed-forward stage as three batched products, and the combination (each token gathers its slot's output row and is
  multiplied by its mask). The functions that were outlined in the program's text are written here inline, each over the
  buffers of its own call, so that the whole program is one list of operations; the list is cut where the dispatched
  array is complete (`opsA`), where the experts' outputs are complete (`opsB`) and the rest (`opsC`). Every weakly fair
  execution of the program terminates with every buffer at the list's fold over the launch contents.
-/
import proofs.«150590_j69355131896109_2_alg».proof.Proof.Gen.ReferenceIdeal
import proofs.«150590_j69355131896109_2_alg».proof.Proof.LibFoldAppend
import Idealize.ShloMosaic.Lib.StableHlo.Run

set_option maxRecDepth 8192

noncomputable section

namespace Cert.Moe.RefRun

open Cert.ReferenceIdeal Cert.ReferenceIdeal.Gen Idealize.ShloMosaic Idealize.ShloMosaic.TcCoe Idealize.SL.Sem Idealize.ShloMosaic.StableHlo

variable {F : FTy → Type} [FloatOps F]

/-- The routing: from the token ids and the token rows to the dispatched array (the scatter's result), 88 operations. -/
abbrev opsA : List (HloOp τ sig (Elt F)) :=
  [ StableHlo.reshape main_arg1 main_v0 rfl shapeCasts_S8x4096_S32768,
    StableHlo.nullary main_c (constantI S_ 32 5099#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S32768 ![] bcast_S_S32768),
    StableHlo.TRef.binary (.of main_v0 : StableHlo.TRef sig ⟨S32768, .i32⟩) main_call0.v3 main_call0.v4 Host.remsi,
    StableHlo.TRef.nullary main_call0.c_1 (constantI S_ 32 0#32),
    StableHlo.TRef.unary main_call0.c_1 main_call0.v5 (broadcastInDim S32768 ![] bcast_S_S32768),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S32768 ![] bcast_S_S32768),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S32768 ![] bcast_S_S32768),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S32768 ![] bcast_S_S32768),
    StableHlo.TRef.binary main_call0.v4 main_call0.v13 main_call0.v14 addi,
    StableHlo.TRef.ternary main_call0.v12 main_call0.v14 main_call0.v4 main_call0.v15 select,
    StableHlo.nullary main_c_0 (constantI S_ 32 64#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S32768 ![] bcast_S_S32768),
    StableHlo.TRef.binary (.of main_v1 : StableHlo.TRef sig ⟨S32768, .i32⟩) main_call1.v3 main_call1.v4 Host.remsi,
    StableHlo.TRef.nullary main_call1.c_1 (constantI S_ 32 0#32),
    StableHlo.TRef.unary main_call1.c_1 main_call1.v5 (broadcastInDim S32768 ![] bcast_S_S32768),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S32768 ![] bcast_S_S32768),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S32768 ![] bcast_S_S32768),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S32768 ![] bcast_S_S32768),
    StableHlo.TRef.binary main_call1.v4 main_call1.v13 main_call1.v14 addi,
    StableHlo.TRef.ternary main_call1.v12 main_call1.v14 main_call1.v4 main_call1.v15 select,
    StableHlo.TRef.unary (.of main_v2 : StableHlo.TRef sig ⟨S32768, .i32⟩) main_call2.v0 (broadcastInDim S32768x1 ![0] bcast_S32768_S32768x1_0),
    StableHlo.TRef.nullary main_call2.v1 (iotaInDim S1x64 32 1),
    StableHlo.TRef.unary main_call2.v0 main_call2.v2 (broadcastInDim S32768x64 ![0, 1] bcast_S32768x1_S32768x64_0_1),
    StableHlo.TRef.unary main_call2.v1 main_call2.v3 (broadcastInDim S32768x64 ![0, 1] bcast_S1x64_S32768x64_0_1),
    StableHlo.TRef.binary main_call2.v2 main_call2.v3 main_call2.v4 (cmpi .eq),
    StableHlo.TRef.unary main_call2.v4 main_call2.v5 (extui 32 · natLt_1_32),
    StableHlo.TRef.nullary main_call3.call0.c (constantI S_ 32 0#32),
    StableHlo.TRef.unary main_call3.call0.c main_call3.call0.v0 (broadcastInDim S_ ![] bcast_S_S_),
    StableHlo.TRef.binary (.of main_v3 : StableHlo.TRef sig ⟨S32768x64, .i32⟩) main_call3.call0.v0 main_call3.call0.v1 (fun x v => Host.reduceWindow IntOp.addi ![32768, 1] ![1, 1] ![32767, 0] ![0, 0] x v reduceWindows_S32768x64_S32768x64_w32768s1p32767_0_w1s1p0_0 h_S_),
    StableHlo.binary main_v4 main_v3 main_v5 (muli : (⟨S32768x64, .i32⟩ : BufTy).Contents (Elt F) → (⟨S32768x64, .i32⟩ : BufTy).Contents (Elt F) → (⟨S32768x64, .i32⟩ : BufTy).Contents (Elt F)),
    StableHlo.nullary main_c_1 (constantI S_ 32 0#32),
    StableHlo.binary main_v5 main_c_1 main_v6 ((fun x v => Host.reduce IntOp.addi x v reducesTo_S32768x64_S32768_d1 h_S_) : (⟨S32768x64, .i32⟩ : BufTy).Contents (Elt F) → (⟨S_, .i32⟩ : BufTy).Contents (Elt F) → (⟨S32768, .i32⟩ : BufTy).Contents (Elt F)),
    StableHlo.nullary main_c_2 (constantI S_ 32 1#32),
    StableHlo.unary main_c_2 main_v7 (broadcastInDim S32768 ![] bcast_S_S32768 : (⟨S_, .i32⟩ : BufTy).Contents (Elt F) → (⟨S32768, .i32⟩ : BufTy).Contents (Elt F)),
    StableHlo.binary main_v6 main_v7 main_v8 (subi : (⟨S32768, .i32⟩ : BufTy).Contents (Elt F) → (⟨S32768, .i32⟩ : BufTy).Contents (Elt F) → (⟨S32768, .i32⟩ : BufTy).Contents (Elt F)),
    StableHlo.nullary main_c_3 (constantI S_ 32 512#32),
    StableHlo.unary main_c_3 main_v9 (broadcastInDim S32768 ![] bcast_S_S32768 : (⟨S_, .i32⟩ : BufTy).Contents (Elt F) → (⟨S32768, .i32⟩ : BufTy).Contents (Elt F)),
    StableHlo.binary main_v8 main_v9 main_v10 (cmpi .slt : (⟨S32768, .i32⟩ : BufTy).Contents (Elt F) → (⟨S32768, .i32⟩ : BufTy).Contents (Elt F) → (⟨S32768, .i1⟩ : BufTy).Contents (Elt F)),
    StableHlo.reshape main_arg0 main_v11 rfl shapeCasts_S8x4096x512_S32768x512,
    StableHlo.nullary main_c_4 (constantI S_ 32 512#32),
    StableHlo.TRef.unary (.of main_c_4 : StableHlo.TRef sig ⟨S_, .i32⟩) main_call4.v0 id,
    StableHlo.TRef.unary main_call4.v0 main_call4.v1 (broadcastInDim S32768 ![] bcast_S_S32768),
    StableHlo.TRef.ternary (.of main_v10 : StableHlo.TRef sig ⟨S32768, .i1⟩) (.of main_v8 : StableHlo.TRef sig ⟨S32768, .i32⟩) main_call4.v1 main_call4.v2 select,
    StableHlo.nullary main_cst (constant S_ .f32 0x00000000#32),
    StableHlo.unary main_cst main_v13 (broadcastInDim S64x512x512 ![] bcast_S_S64x512x512 : (⟨S_, .f32⟩ : BufTy).Contents (Elt F) → (⟨S64x512x512, .f32⟩ : BufTy).Contents (Elt F)),
    StableHlo.nullary main_c_5 (constantI S_ 32 0#32),
    StableHlo.unary main_c_5 main_v14 (broadcastInDim S32768 ![] bcast_S_S32768 : (⟨S_, .i32⟩ : BufTy).Contents (Elt F) → (⟨S32768, .i32⟩ : BufTy).Contents (Elt F)),
    StableHlo.binary main_v2 main_v14 main_v15 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 64#32),
    StableHlo.unary main_c_6 main_v16 (broadcastInDim S32768 ![] bcast_S_S32768 : (⟨S_, .i32⟩ : BufTy).Contents (Elt F) → (⟨S32768, .i32⟩ : BufTy).Contents (Elt F)),
    StableHlo.binary main_v2 main_v16 main_v17 (addi : (⟨S32768, .i32⟩ : BufTy).Contents (Elt F) → (⟨S32768, .i32⟩ : BufTy).Contents (Elt F) → (⟨S32768, .i32⟩ : BufTy).Contents (Elt F)),
    StableHlo.ternary main_v15 main_v17 main_v2 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_7 (constantI S_ 32 0#32),
    StableHlo.unary main_c_7 main_v19 (broadcastInDim S32768 ![] bcast_S_S32768 : (⟨S_, .i32⟩ : BufTy).Contents (Elt F) → (⟨S32768, .i32⟩ : BufTy).Contents (Elt F)),
    StableHlo.binary main_v12 main_v19 main_v20 (cmpi .slt : (⟨S32768, .i32⟩ : BufTy).Contents (Elt F) → (⟨S32768, .i32⟩ : BufTy).Contents (Elt F) → (⟨S32768, .i1⟩ : BufTy).Contents (Elt F)),
    StableHlo.nullary main_c_8 (constantI S_ 32 512#32),
    StableHlo.unary main_c_8 main_v21 (broadcastInDim S32768 ![] bcast_S_S32768 : (⟨S_, .i32⟩ : BufTy).Contents (Elt F) → (⟨S32768, .i32⟩ : BufTy).Contents (Elt F)),
    StableHlo.binary main_v12 main_v21 main_v22 (addi : (⟨S32768, .i32⟩ : BufTy).Contents (Elt F) → (⟨S32768, .i32⟩ : BufTy).Contents (Elt F) → (⟨S32768, .i32⟩ : BufTy).Contents (Elt F)),
    StableHlo.ternary main_v20 main_v22 main_v12 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v18 main_v24 (broadcastInDim S32768x1 ![0] bcast_S32768_S32768x1_0 : (⟨S32768, .i32⟩ : BufTy).Contents (Elt F) → (⟨S32768x1, .i32⟩ : BufTy).Contents (Elt F)),
    StableHlo.unary main_v23 main_v25 (broadcastInDim S32768x1 ![0] bcast_S32768_S32768x1_0 : (⟨S32768, .i32⟩ : BufTy).Contents (Elt F) → (⟨S32768x1, .i32⟩ : BufTy).Contents (Elt F)),
    StableHlo.binary main_v24 main_v25 main_v26 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.ternary main_v13 main_v26 main_v11 main_v27 ((fun x i u => Host.scatter scatter_S64x512x512_S32768x2_S32768x512_1_01_01_1 (fun _ b => b) x i u) : (⟨S64x512x512, .f32⟩ : BufTy).Contents (Elt F) → (⟨S32768x2, .i32⟩ : BufTy).Contents (Elt F) → (⟨S32768x512, .f32⟩ : BufTy).Contents (Elt F) → (⟨S64x512x512, .f32⟩ : BufTy).Contents (Elt F)) ]

/-- The experts' stage: from the dispatched array and the weight stacks to the gated outputs, 16 operations. -/
abbrev opsB : List (HloOp τ sig (Elt F)) :=
  [ StableHlo.binary main_v27 main_arg2 main_v28 ((fun l r => Host.dotGeneral dot_S64x512x512_S64x1792x512_S64x512x1792_2_2_1_1_0_0 none l r) : (⟨S64x512x512, .f32⟩ : BufTy).Contents (Elt F) → (⟨S64x1792x512, .f32⟩ : BufTy).Contents (Elt F) → (⟨S64x512x1792, .f32⟩ : BufTy).Contents (Elt F)),
    StableHlo.TRef.nullary main_call5.cst (constant S_ .f32 0x00000000#32),
    StableHlo.TRef.unary main_call5.cst main_call5.v0 (broadcastInDim S64x512x1792 ![] bcast_S_S64x512x1792),
    StableHlo.TRef.binary (.of main_v28 : StableHlo.TRef sig ⟨S64x512x1792, .f32⟩) main_call5.v0 main_call5.v1 maximumf,
    StableHlo.binary main_v29 main_v29 main_v30 (mulf : (⟨S64x512x1792, .f32⟩ : BufTy).Contents (Elt F) → (⟨S64x512x1792, .f32⟩ : BufTy).Contents (Elt F) → (⟨S64x512x1792, .f32⟩ : BufTy).Contents (Elt F)),
    StableHlo.binary main_v30 main_arg4 main_v31 ((fun l r => Host.dotGeneral dot_S64x512x1792_S64x512x1792_S64x512x512_2_2_1_1_0_0 none l r) : (⟨S64x512x1792, .f32⟩ : BufTy).Contents (Elt F) → (⟨S64x512x1792, .f32⟩ : BufTy).Contents (Elt F) → (⟨S64x512x512, .f32⟩ : BufTy).Contents (Elt F)),
    StableHlo.binary main_v27 main_arg3 main_v32 ((fun l r => Host.dotGeneral dot_S64x512x512_S64x512x512_S64x512x512_2_2_1_1_0_0 none l r) : (⟨S64x512x512, .f32⟩ : BufTy).Contents (Elt F) → (⟨S64x512x512, .f32⟩ : BufTy).Contents (Elt F) → (⟨S64x512x512, .f32⟩ : BufTy).Contents (Elt F)),
    StableHlo.unary main_v32 main_v33 (Host.negf : (⟨S64x512x512, .f32⟩ : BufTy).Contents (Elt F) → (⟨S64x512x512, .f32⟩ : BufTy).Contents (Elt F)),
    StableHlo.unary main_v33 main_v34 (Host.exp : (⟨S64x512x512, .f32⟩ : BufTy).Contents (Elt F) → (⟨S64x512x512, .f32⟩ : BufTy).Contents (Elt F)),
    StableHlo.nullary main_cst_9 (constant S_ .f32 0x3F800000#32),
    StableHlo.unary main_cst_9 main_v35 (broadcastInDim S64x512x512 ![] bcast_S_S64x512x512 : (⟨S_, .f32⟩ : BufTy).Contents (Elt F) → (⟨S64x512x512, .f32⟩ : BufTy).Contents (Elt F)),
    StableHlo.binary main_v35 main_v34 main_v36 (addf : (⟨S64x512x512, .f32⟩ : BufTy).Contents (Elt F) → (⟨S64x512x512, .f32⟩ : BufTy).Contents (Elt F) → (⟨S64x512x512, .f32⟩ : BufTy).Contents (Elt F)),
    StableHlo.nullary main_cst_10 (constant S_ .f32 0x3F800000#32),
    StableHlo.unary main_cst_10 main_v37 (broadcastInDim S64x512x512 ![] bcast_S_S64x512x512 : (⟨S_, .f32⟩ : BufTy).Contents (Elt F) → (⟨S64x512x512, .f32⟩ : BufTy).Contents (Elt F)),
    StableHlo.binary main_v37 main_v36 main_v38 (Host.divf : (⟨S64x512x512, .f32⟩ : BufTy).Contents (Elt F) → (⟨S64x512x512, .f32⟩ : BufTy).Contents (Elt F) → (⟨S64x512x512, .f32⟩ : BufTy).Contents (Elt F)),
    StableHlo.binary main_v38 main_v31 main_v39 (mulf : (⟨S64x512x512, .f32⟩ : BufTy).Contents (Elt F) → (⟨S64x512x512, .f32⟩ : BufTy).Contents (Elt F) → (⟨S64x512x512, .f32⟩ : BufTy).Contents (Elt F)) ]

/-- The combination: each token's slot gathered from the experts' outputs, masked, and laid out as the result, 26
    operations. -/
abbrev opsC : List (HloOp τ sig (Elt F)) :=
  [ StableHlo.nullary main_c_11 (constantI S_ 32 511#32),
    StableHlo.unary main_c_11 main_v40 (broadcastInDim S32768 ![] bcast_S_S32768 : (⟨S_, .i32⟩ : BufTy).Contents (Elt F) → (⟨S32768, .i32⟩ : BufTy).Contents (Elt F)),
    StableHlo.binary main_v8 main_v40 main_v41 (minsi : (⟨S32768, .i32⟩ : BufTy).Contents (Elt F) → (⟨S32768, .i32⟩ : BufTy).Contents (Elt F) → (⟨S32768, .i32⟩ : BufTy).Contents (Elt F)),
    StableHlo.nullary main_c_12 (constantI S_ 32 0#32),
    StableHlo.unary main_c_12 main_v42 (broadcastInDim S32768 ![] bcast_S_S32768 : (⟨S_, .i32⟩ : BufTy).Contents (Elt F) → (⟨S32768, .i32⟩ : BufTy).Contents (Elt F)),
    StableHlo.binary main_v2 main_v42 main_v43 (cmpi .slt : (⟨S32768, .i32⟩ : BufTy).Contents (Elt F) → (⟨S32768, .i32⟩ : BufTy).Contents (Elt F) → (⟨S32768, .i1⟩ : BufTy).Contents (Elt F)),
    StableHlo.nullary main_c_13 (constantI S_ 32 64#32),
    StableHlo.unary main_c_13 main_v44 (broadcastInDim S32768 ![] bcast_S_S32768 : (⟨S_, .i32⟩ : BufTy).Contents (Elt F) → (⟨S32768, .i32⟩ : BufTy).Contents (Elt F)),
    StableHlo.binary main_v2 main_v44 main_v45 (addi : (⟨S32768, .i32⟩ : BufTy).Contents (Elt F) → (⟨S32768, .i32⟩ : BufTy).Contents (Elt F) → (⟨S32768, .i32⟩ : BufTy).Contents (Elt F)),
    StableHlo.ternary main_v43 main_v45 main_v2 main_v46 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_14 (constantI S_ 32 0#32),
    StableHlo.unary main_c_14 main_v47 (broadcastInDim S32768 ![] bcast_S_S32768 : (⟨S_, .i32⟩ : BufTy).Contents (Elt F) → (⟨S32768, .i32⟩ : BufTy).Contents (Elt F)),
    StableHlo.binary main_v41 main_v47 main_v48 (cmpi .slt : (⟨S32768, .i32⟩ : BufTy).Contents (Elt F) → (⟨S32768, .i32⟩ : BufTy).Contents (Elt F) → (⟨S32768, .i1⟩ : BufTy).Contents (Elt F)),
    StableHlo.nullary main_c_15 (constantI S_ 32 512#32),
    StableHlo.unary main_c_15 main_v49 (broadcastInDim S32768 ![] bcast_S_S32768 : (⟨S_, .i32⟩ : BufTy).Contents (Elt F) → (⟨S32768, .i32⟩ : BufTy).Contents (Elt F)),
    StableHlo.binary main_v41 main_v49 main_v50 (addi : (⟨S32768, .i32⟩ : BufTy).Contents (Elt F) → (⟨S32768, .i32⟩ : BufTy).Contents (Elt F) → (⟨S32768, .i32⟩ : BufTy).Contents (Elt F)),
    StableHlo.ternary main_v48 main_v50 main_v41 main_v51 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v46 main_v52 (broadcastInDim S32768x1 ![0] bcast_S32768_S32768x1_0 : (⟨S32768, .i32⟩ : BufTy).Contents (Elt F) → (⟨S32768x1, .i32⟩ : BufTy).Contents (Elt F)),
    StableHlo.unary main_v51 main_v53 (broadcastInDim S32768x1 ![0] bcast_S32768_S32768x1_0 : (⟨S32768, .i32⟩ : BufTy).Contents (Elt F) → (⟨S32768x1, .i32⟩ : BufTy).Contents (Elt F)),
    StableHlo.binary main_v52 main_v53 main_v54 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v39 main_v54 main_v55 ((fun x i => Host.gather gather_S64x512x512_S32768x2_S32768x512_1_01_n_n_01_1_11512 x i) : (⟨S64x512x512, .f32⟩ : BufTy).Contents (Elt F) → (⟨S32768x2, .i32⟩ : BufTy).Contents (Elt F) → (⟨S32768x512, .f32⟩ : BufTy).Contents (Elt F)),
    StableHlo.unary main_v10 main_v56 (broadcastInDim S32768x1 ![0] bcast_S32768_S32768x1_0 : (⟨S32768, .i1⟩ : BufTy).Contents (Elt F) → (⟨S32768x1, .i1⟩ : BufTy).Contents (Elt F)),
    StableHlo.unary main_v56 main_v57 (uitofp .f32 : (⟨S32768x1, .i1⟩ : BufTy).Contents (Elt F) → (⟨S32768x1, .f32⟩ : BufTy).Contents (Elt F)),
    StableHlo.unary main_v57 main_v58 (broadcastInDim S32768x512 ![0, 1] bcast_S32768x1_S32768x512_0_1 : (⟨S32768x1, .f32⟩ : BufTy).Contents (Elt F) → (⟨S32768x512, .f32⟩ : BufTy).Contents (Elt F)),
    StableHlo.binary main_v55 main_v58 main_v59 (mulf : (⟨S32768x512, .f32⟩ : BufTy).Contents (Elt F) → (⟨S32768x512, .f32⟩ : BufTy).Contents (Elt F) → (⟨S32768x512, .f32⟩ : BufTy).Contents (Elt F)),
    StableHlo.reshape main_v59 main_v60 rfl shapeCasts_S32768x512_S8x4096x512 ]

/-- The whole program's operations, in order. -/
abbrev ops : List (HloOp τ sig (Elt F)) :=
  [ StableHlo.reshape main_arg1 main_v0 rfl shapeCasts_S8x4096_S32768,
    StableHlo.nullary main_c (constantI S_ 32 5099#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S32768 ![] bcast_S_S32768),
    StableHlo.TRef.binary (.of main_v0 : StableHlo.TRef sig ⟨S32768, .i32⟩) main_call0.v3 main_call0.v4 Host.remsi,
    StableHlo.TRef.nullary main_call0.c_1 (constantI S_ 32 0#32),
    StableHlo.TRef.unary main_call0.c_1 main_call0.v5 (broadcastInDim S32768 ![] bcast_S_S32768),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S32768 ![] bcast_S_S32768),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S32768 ![] bcast_S_S32768),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S32768 ![] bcast_S_S32768),
    StableHlo.TRef.binary main_call0.v4 main_call0.v13 main_call0.v14 addi,
    StableHlo.TRef.ternary main_call0.v12 main_call0.v14 main_call0.v4 main_call0.v15 select,
    StableHlo.nullary main_c_0 (constantI S_ 32 64#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S32768 ![] bcast_S_S32768),
    StableHlo.TRef.binary (.of main_v1 : StableHlo.TRef sig ⟨S32768, .i32⟩) main_call1.v3 main_call1.v4 Host.remsi,
    StableHlo.TRef.nullary main_call1.c_1 (constantI S_ 32 0#32),
    StableHlo.TRef.unary main_call1.c_1 main_call1.v5 (broadcastInDim S32768 ![] bcast_S_S32768),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S32768 ![] bcast_S_S32768),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S32768 ![] bcast_S_S32768),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S32768 ![] bcast_S_S32768),
    StableHlo.TRef.binary main_call1.v4 main_call1.v13 main_call1.v14 addi,
    StableHlo.TRef.ternary main_call1.v12 main_call1.v14 main_call1.v4 main_call1.v15 select,
    StableHlo.TRef.unary (.of main_v2 : StableHlo.TRef sig ⟨S32768, .i32⟩) main_call2.v0 (broadcastInDim S32768x1 ![0] bcast_S32768_S32768x1_0),
    StableHlo.TRef.nullary main_call2.v1 (iotaInDim S1x64 32 1),
    StableHlo.TRef.unary main_call2.v0 main_call2.v2 (broadcastInDim S32768x64 ![0, 1] bcast_S32768x1_S32768x64_0_1),
    StableHlo.TRef.unary main_call2.v1 main_call2.v3 (broadcastInDim S32768x64 ![0, 1] bcast_S1x64_S32768x64_0_1),
    StableHlo.TRef.binary main_call2.v2 main_call2.v3 main_call2.v4 (cmpi .eq),
    StableHlo.TRef.unary main_call2.v4 main_call2.v5 (extui 32 · natLt_1_32),
    StableHlo.TRef.nullary main_call3.call0.c (constantI S_ 32 0#32),
    StableHlo.TRef.unary main_call3.call0.c main_call3.call0.v0 (broadcastInDim S_ ![] bcast_S_S_),
    StableHlo.TRef.binary (.of main_v3 : StableHlo.TRef sig ⟨S32768x64, .i32⟩) main_call3.call0.v0 main_call3.call0.v1 (fun x v => Host.reduceWindow IntOp.addi ![32768, 1] ![1, 1] ![32767, 0] ![0, 0] x v reduceWindows_S32768x64_S32768x64_w32768s1p32767_0_w1s1p0_0 h_S_),
    StableHlo.binary main_v4 main_v3 main_v5 (muli : (⟨S32768x64, .i32⟩ : BufTy).Contents (Elt F) → (⟨S32768x64, .i32⟩ : BufTy).Contents (Elt F) → (⟨S32768x64, .i32⟩ : BufTy).Contents (Elt F)),
    StableHlo.nullary main_c_1 (constantI S_ 32 0#32),
    StableHlo.binary main_v5 main_c_1 main_v6 ((fun x v => Host.reduce IntOp.addi x v reducesTo_S32768x64_S32768_d1 h_S_) : (⟨S32768x64, .i32⟩ : BufTy).Contents (Elt F) → (⟨S_, .i32⟩ : BufTy).Contents (Elt F) → (⟨S32768, .i32⟩ : BufTy).Contents (Elt F)),
    StableHlo.nullary main_c_2 (constantI S_ 32 1#32),
    StableHlo.unary main_c_2 main_v7 (broadcastInDim S32768 ![] bcast_S_S32768 : (⟨S_, .i32⟩ : BufTy).Contents (Elt F) → (⟨S32768, .i32⟩ : BufTy).Contents (Elt F)),
    StableHlo.binary main_v6 main_v7 main_v8 (subi : (⟨S32768, .i32⟩ : BufTy).Contents (Elt F) → (⟨S32768, .i32⟩ : BufTy).Contents (Elt F) → (⟨S32768, .i32⟩ : BufTy).Contents (Elt F)),
    StableHlo.nullary main_c_3 (constantI S_ 32 512#32),
    StableHlo.unary main_c_3 main_v9 (broadcastInDim S32768 ![] bcast_S_S32768 : (⟨S_, .i32⟩ : BufTy).Contents (Elt F) → (⟨S32768, .i32⟩ : BufTy).Contents (Elt F)),
    StableHlo.binary main_v8 main_v9 main_v10 (cmpi .slt : (⟨S32768, .i32⟩ : BufTy).Contents (Elt F) → (⟨S32768, .i32⟩ : BufTy).Contents (Elt F) → (⟨S32768, .i1⟩ : BufTy).Contents (Elt F)),
    StableHlo.reshape main_arg0 main_v11 rfl shapeCasts_S8x4096x512_S32768x512,
    StableHlo.nullary main_c_4 (constantI S_ 32 512#32),
    StableHlo.TRef.unary (.of main_c_4 : StableHlo.TRef sig ⟨S_, .i32⟩) main_call4.v0 id,
    StableHlo.TRef.unary main_call4.v0 main_call4.v1 (broadcastInDim S32768 ![] bcast_S_S32768),
    StableHlo.TRef.ternary (.of main_v10 : StableHlo.TRef sig ⟨S32768, .i1⟩) (.of main_v8 : StableHlo.TRef sig ⟨S32768, .i32⟩) main_call4.v1 main_call4.v2 select,
    StableHlo.nullary main_cst (constant S_ .f32 0x00000000#32),
    StableHlo.unary main_cst main_v13 (broadcastInDim S64x512x512 ![] bcast_S_S64x512x512 : (⟨S_, .f32⟩ : BufTy).Contents (Elt F) → (⟨S64x512x512, .f32⟩ : BufTy).Contents (Elt F)),
    StableHlo.nullary main_c_5 (constantI S_ 32 0#32),
    StableHlo.unary main_c_5 main_v14 (broadcastInDim S32768 ![] bcast_S_S32768 : (⟨S_, .i32⟩ : BufTy).Contents (Elt F) → (⟨S32768, .i32⟩ : BufTy).Contents (Elt F)),
    StableHlo.binary main_v2 main_v14 main_v15 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 64#32),
    StableHlo.unary main_c_6 main_v16 (broadcastInDim S32768 ![] bcast_S_S32768 : (⟨S_, .i32⟩ : BufTy).Contents (Elt F) → (⟨S32768, .i32⟩ : BufTy).Contents (Elt F)),
    StableHlo.binary main_v2 main_v16 main_v17 (addi : (⟨S32768, .i32⟩ : BufTy).Contents (Elt F) → (⟨S32768, .i32⟩ : BufTy).Contents (Elt F) → (⟨S32768, .i32⟩ : BufTy).Contents (Elt F)),
    StableHlo.ternary main_v15 main_v17 main_v2 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_7 (constantI S_ 32 0#32),
    StableHlo.unary main_c_7 main_v19 (broadcastInDim S32768 ![] bcast_S_S32768 : (⟨S_, .i32⟩ : BufTy).Contents (Elt F) → (⟨S32768, .i32⟩ : BufTy).Contents (Elt F)),
    StableHlo.binary main_v12 main_v19 main_v20 (cmpi .slt : (⟨S32768, .i32⟩ : BufTy).Contents (Elt F) → (⟨S32768, .i32⟩ : BufTy).Contents (Elt F) → (⟨S32768, .i1⟩ : BufTy).Contents (Elt F)),
    StableHlo.nullary main_c_8 (constantI S_ 32 512#32),
    StableHlo.unary main_c_8 main_v21 (broadcastInDim S32768 ![] bcast_S_S32768 : (⟨S_, .i32⟩ : BufTy).Contents (Elt F) → (⟨S32768, .i32⟩ : BufTy).Contents (Elt F)),
    StableHlo.binary main_v12 main_v21 main_v22 (addi : (⟨S32768, .i32⟩ : BufTy).Contents (Elt F) → (⟨S32768, .i32⟩ : BufTy).Contents (Elt F) → (⟨S32768, .i32⟩ : BufTy).Contents (Elt F)),
    StableHlo.ternary main_v20 main_v22 main_v12 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v18 main_v24 (broadcastInDim S32768x1 ![0] bcast_S32768_S32768x1_0 : (⟨S32768, .i32⟩ : BufTy).Contents (Elt F) → (⟨S32768x1, .i32⟩ : BufTy).Contents (Elt F)),
    StableHlo.unary main_v23 main_v25 (broadcastInDim S32768x1 ![0] bcast_S32768_S32768x1_0 : (⟨S32768, .i32⟩ : BufTy).Contents (Elt F) → (⟨S32768x1, .i32⟩ : BufTy).Contents (Elt F)),
    StableHlo.binary main_v24 main_v25 main_v26 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.ternary main_v13 main_v26 main_v11 main_v27 ((fun x i u => Host.scatter scatter_S64x512x512_S32768x2_S32768x512_1_01_01_1 (fun _ b => b) x i u) : (⟨S64x512x512, .f32⟩ : BufTy).Contents (Elt F) → (⟨S32768x2, .i32⟩ : BufTy).Contents (Elt F) → (⟨S32768x512, .f32⟩ : BufTy).Contents (Elt F) → (⟨S64x512x512, .f32⟩ : BufTy).Contents (Elt F)),
    StableHlo.binary main_v27 main_arg2 main_v28 ((fun l r => Host.dotGeneral dot_S64x512x512_S64x1792x512_S64x512x1792_2_2_1_1_0_0 none l r) : (⟨S64x512x512, .f32⟩ : BufTy).Contents (Elt F) → (⟨S64x1792x512, .f32⟩ : BufTy).Contents (Elt F) → (⟨S64x512x1792, .f32⟩ : BufTy).Contents (Elt F)),
    StableHlo.TRef.nullary main_call5.cst (constant S_ .f32 0x00000000#32),
    StableHlo.TRef.unary main_call5.cst main_call5.v0 (broadcastInDim S64x512x1792 ![] bcast_S_S64x512x1792),
    StableHlo.TRef.binary (.of main_v28 : StableHlo.TRef sig ⟨S64x512x1792, .f32⟩) main_call5.v0 main_call5.v1 maximumf,
    StableHlo.binary main_v29 main_v29 main_v30 (mulf : (⟨S64x512x1792, .f32⟩ : BufTy).Contents (Elt F) → (⟨S64x512x1792, .f32⟩ : BufTy).Contents (Elt F) → (⟨S64x512x1792, .f32⟩ : BufTy).Contents (Elt F)),
    StableHlo.binary main_v30 main_arg4 main_v31 ((fun l r => Host.dotGeneral dot_S64x512x1792_S64x512x1792_S64x512x512_2_2_1_1_0_0 none l r) : (⟨S64x512x1792, .f32⟩ : BufTy).Contents (Elt F) → (⟨S64x512x1792, .f32⟩ : BufTy).Contents (Elt F) → (⟨S64x512x512, .f32⟩ : BufTy).Contents (Elt F)),
    StableHlo.binary main_v27 main_arg3 main_v32 ((fun l r => Host.dotGeneral dot_S64x512x512_S64x512x512_S64x512x512_2_2_1_1_0_0 none l r) : (⟨S64x512x512, .f32⟩ : BufTy).Contents (Elt F) → (⟨S64x512x512, .f32⟩ : BufTy).Contents (Elt F) → (⟨S64x512x512, .f32⟩ : BufTy).Contents (Elt F)),
    StableHlo.unary main_v32 main_v33 (Host.negf : (⟨S64x512x512, .f32⟩ : BufTy).Contents (Elt F) → (⟨S64x512x512, .f32⟩ : BufTy).Contents (Elt F)),
    StableHlo.unary main_v33 main_v34 (Host.exp : (⟨S64x512x512, .f32⟩ : BufTy).Contents (Elt F) → (⟨S64x512x512, .f32⟩ : BufTy).Contents (Elt F)),
    StableHlo.nullary main_cst_9 (constant S_ .f32 0x3F800000#32),
    StableHlo.unary main_cst_9 main_v35 (broadcastInDim S64x512x512 ![] bcast_S_S64x512x512 : (⟨S_, .f32⟩ : BufTy).Contents (Elt F) → (⟨S64x512x512, .f32⟩ : BufTy).Contents (Elt F)),
    StableHlo.binary main_v35 main_v34 main_v36 (addf : (⟨S64x512x512, .f32⟩ : BufTy).Contents (Elt F) → (⟨S64x512x512, .f32⟩ : BufTy).Contents (Elt F) → (⟨S64x512x512, .f32⟩ : BufTy).Contents (Elt F)),
    StableHlo.nullary main_cst_10 (constant S_ .f32 0x3F800000#32),
    StableHlo.unary main_cst_10 main_v37 (broadcastInDim S64x512x512 ![] bcast_S_S64x512x512 : (⟨S_, .f32⟩ : BufTy).Contents (Elt F) → (⟨S64x512x512, .f32⟩ : BufTy).Contents (Elt F)),
    StableHlo.binary main_v37 main_v36 main_v38 (Host.divf : (⟨S64x512x512, .f32⟩ : BufTy).Contents (Elt F) → (⟨S64x512x512, .f32⟩ : BufTy).Contents (Elt F) → (⟨S64x512x512, .f32⟩ : BufTy).Contents (Elt F)),
    StableHlo.binary main_v38 main_v31 main_v39 (mulf : (⟨S64x512x512, .f32⟩ : BufTy).Contents (Elt F) → (⟨S64x512x512, .f32⟩ : BufTy).Contents (Elt F) → (⟨S64x512x512, .f32⟩ : BufTy).Contents (Elt F)),
    StableHlo.nullary main_c_11 (constantI S_ 32 511#32),
    StableHlo.unary main_c_11 main_v40 (broadcastInDim S32768 ![] bcast_S_S32768 : (⟨S_, .i32⟩ : BufTy).Contents (Elt F) → (⟨S32768, .i32⟩ : BufTy).Contents (Elt F)),
    StableHlo.binary main_v8 main_v40 main_v41 (minsi : (⟨S32768, .i32⟩ : BufTy).Contents (Elt F) → (⟨S32768, .i32⟩ : BufTy).Contents (Elt F) → (⟨S32768, .i32⟩ : BufTy).Contents (Elt F)),
    StableHlo.nullary main_c_12 (constantI S_ 32 0#32),
    StableHlo.unary main_c_12 main_v42 (broadcastInDim S32768 ![] bcast_S_S32768 : (⟨S_, .i32⟩ : BufTy).Contents (Elt F) → (⟨S32768, .i32⟩ : BufTy).Contents (Elt F)),
    StableHlo.binary main_v2 main_v42 main_v43 (cmpi .slt : (⟨S32768, .i32⟩ : BufTy).Contents (Elt F) → (⟨S32768, .i32⟩ : BufTy).Contents (Elt F) → (⟨S32768, .i1⟩ : BufTy).Contents (Elt F)),
    StableHlo.nullary main_c_13 (constantI S_ 32 64#32),
    StableHlo.unary main_c_13 main_v44 (broadcastInDim S32768 ![] bcast_S_S32768 : (⟨S_, .i32⟩ : BufTy).Contents (Elt F) → (⟨S32768, .i32⟩ : BufTy).Contents (Elt F)),
    StableHlo.binary main_v2 main_v44 main_v45 (addi : (⟨S32768, .i32⟩ : BufTy).Contents (Elt F) → (⟨S32768, .i32⟩ : BufTy).Contents (Elt F) → (⟨S32768, .i32⟩ : BufTy).Contents (Elt F)),
    StableHlo.ternary main_v43 main_v45 main_v2 main_v46 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_14 (constantI S_ 32 0#32),
    StableHlo.unary main_c_14 main_v47 (broadcastInDim S32768 ![] bcast_S_S32768 : (⟨S_, .i32⟩ : BufTy).Contents (Elt F) → (⟨S32768, .i32⟩ : BufTy).Contents (Elt F)),
    StableHlo.binary main_v41 main_v47 main_v48 (cmpi .slt : (⟨S32768, .i32⟩ : BufTy).Contents (Elt F) → (⟨S32768, .i32⟩ : BufTy).Contents (Elt F) → (⟨S32768, .i1⟩ : BufTy).Contents (Elt F)),
    StableHlo.nullary main_c_15 (constantI S_ 32 512#32),
    StableHlo.unary main_c_15 main_v49 (broadcastInDim S32768 ![] bcast_S_S32768 : (⟨S_, .i32⟩ : BufTy).Contents (Elt F) → (⟨S32768, .i32⟩ : BufTy).Contents (Elt F)),
    StableHlo.binary main_v41 main_v49 main_v50 (addi : (⟨S32768, .i32⟩ : BufTy).Contents (Elt F) → (⟨S32768, .i32⟩ : BufTy).Contents (Elt F) → (⟨S32768, .i32⟩ : BufTy).Contents (Elt F)),
    StableHlo.ternary main_v48 main_v50 main_v41 main_v51 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v46 main_v52 (broadcastInDim S32768x1 ![0] bcast_S32768_S32768x1_0 : (⟨S32768, .i32⟩ : BufTy).Contents (Elt F) → (⟨S32768x1, .i32⟩ : BufTy).Contents (Elt F)),
    StableHlo.unary main_v51 main_v53 (broadcastInDim S32768x1 ![0] bcast_S32768_S32768x1_0 : (⟨S32768, .i32⟩ : BufTy).Contents (Elt F) → (⟨S32768x1, .i32⟩ : BufTy).Contents (Elt F)),
    StableHlo.binary main_v52 main_v53 main_v54 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v39 main_v54 main_v55 ((fun x i => Host.gather gather_S64x512x512_S32768x2_S32768x512_1_01_n_n_01_1_11512 x i) : (⟨S64x512x512, .f32⟩ : BufTy).Contents (Elt F) → (⟨S32768x2, .i32⟩ : BufTy).Contents (Elt F) → (⟨S32768x512, .f32⟩ : BufTy).Contents (Elt F)),
    StableHlo.unary main_v10 main_v56 (broadcastInDim S32768x1 ![0] bcast_S32768_S32768x1_0 : (⟨S32768, .i1⟩ : BufTy).Contents (Elt F) → (⟨S32768x1, .i1⟩ : BufTy).Contents (Elt F)),
    StableHlo.unary main_v56 main_v57 (uitofp .f32 : (⟨S32768x1, .i1⟩ : BufTy).Contents (Elt F) → (⟨S32768x1, .f32⟩ : BufTy).Contents (Elt F)),
    StableHlo.unary main_v57 main_v58 (broadcastInDim S32768x512 ![0, 1] bcast_S32768x1_S32768x512_0_1 : (⟨S32768x1, .f32⟩ : BufTy).Contents (Elt F) → (⟨S32768x512, .f32⟩ : BufTy).Contents (Elt F)),
    StableHlo.binary main_v55 main_v58 main_v59 (mulf : (⟨S32768x512, .f32⟩ : BufTy).Contents (Elt F) → (⟨S32768x512, .f32⟩ : BufTy).Contents (Elt F) → (⟨S32768x512, .f32⟩ : BufTy).Contents (Elt F)),
    StableHlo.reshape main_v59 main_v60 rfl shapeCasts_S32768x512_S8x4096x512 ]

/-- The whole list is the three stretches one after the other. -/
theorem ops_eq : (ops : List (HloOp τ sig (Elt F))) = opsA ++ (opsB ++ opsC) := rfl

set_option maxHeartbeats 4000000 in
/-- The program is that straight line: the outlined functions unfolded at their calls and the two halves of the
    program's text joined, both sides are one chain of steps once sequencing is reassociated. -/
theorem main_eq (c : Dev nD) : main (F := F) c = seq ops := by
  simp only [main, main_part0, main_part1, fn_remainder.body, fn_where.body, fn_one_hot.body, fn_cumsum.body, fn_cumsum_0.body,
    fn_where_1.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one device only. -/
theorem ops_sub : (ops : List (HloOp τ sig (Elt F))).Forall fun op => op.bufs ⊆ tcRefs τ sig :=
  ⟨reshape_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., unary_bufs_sub .., binary_bufs_sub .., unary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., reshape_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., nullary_bufs_sub .., unary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., reshape_bufs_sub ..⟩

/-- From any memory with zero counters every weakly fair execution of the reference terminates, and every buffer ends at
    the fold of the program's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over the whole program is the fold over the combination from the fold over the experts' stage from the fold over
    the routing. -/
theorem after_ops (V : Valuation τ sig (Elt F)) : after ops V = after opsC (after opsB (after opsA V)) := by
  rw [ops_eq, after_append, after_append]

end Cert.Moe.RefRun

end
-- ==== Proof.RefKeep.lean ====
/-
  The reference program writes none of its argument arrays.

  Every operation of the reference writes a buffer of its own; the five argument arrays are never among them. Read at an
  argument array, the fold of the whole program over any starting contents is therefore the starting contents.
-/
import proofs.«150590_j69355131896109_2_alg».proof.Proof.RefRun

set_option maxRecDepth 16384

noncomputable section

namespace Cert.Moe.RefRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxHeartbeats 2000000 in
theorem keep_arg0 : after (ops (F := F)) V (Proc.devRef .tc main_arg0) = V (Proc.devRef .tc main_arg0) := by after_results_simp
set_option maxHeartbeats 2000000 in
theorem keep_arg1 : after (ops (F := F)) V (Proc.devRef .tc main_arg1) = V (Proc.devRef .tc main_arg1) := by after_results_simp
set_option maxHeartbeats 2000000 in
theorem keep_arg2 : after (ops (F := F)) V (Proc.devRef .tc main_arg2) = V (Proc.devRef .tc main_arg2) := by after_results_simp
set_option maxHeartbeats 2000000 in
theorem keep_arg3 : after (ops (F := F)) V (Proc.devRef .tc main_arg3) = V (Proc.devRef .tc main_arg3) := by after_results_simp
set_option maxHeartbeats 2000000 in
theorem keep_arg4 : after (ops (F := F)) V (Proc.devRef .tc main_arg4) = V (Proc.devRef .tc main_arg4) := by after_results_simp

end Cert.Moe.RefRun

end
-- ==== Proof.KSplit.lean ====
/-
  The kernel program's routing, in two halves.

  The 88 host operations before the kernel program's region are cut after the expert index is complete: the first half hashes
  the token ids into expert indices, the second finds every token's slot and mask and scatters the token rows. The program's
  list is the two halves one after the other, so its fold is the second half's from the first half's.
-/
import proofs.«150590_j69355131896109_2_alg».proof.Proof.Gen.KernelIdeal.Launch
import proofs.«150590_j69355131896109_2_alg».proof.Proof.LibFoldAppend

set_option maxRecDepth 65536

noncomputable section

namespace Cert.Moe.KSplit

open Cert.KernelIdeal Cert.KernelIdeal.Gen Idealize.ShloMosaic Idealize.ShloMosaic.TcCoe Idealize.ShloMosaic.StableHlo

variable {F : FTy → Type} [FloatOps F]

/-- From the token ids to the expert index of every token. -/
abbrev hashing : List (HloOp τ sig (Elt F)) :=
  [ StableHlo.TRef.reshape (.of main_arg1 : StableHlo.TRef sig ⟨S8x4096, .i32⟩) (.of main_call0_v0 : StableHlo.TRef sig ⟨S32768, .i32⟩) rfl shapeCasts_S8x4096_S32768,
    StableHlo.TRef.nullary (.of main_call0_c : StableHlo.TRef sig ⟨S_, .i32⟩) (constantI S_ 32 5099#32),
    StableHlo.TRef.unary (.of main_call0_c : StableHlo.TRef sig ⟨S_, .i32⟩) (.of main_call0_call0_v0 : StableHlo.TRef sig ⟨S_, .i32⟩) id,
    StableHlo.TRef.nullary (.of main_call0_call0_c : StableHlo.TRef sig ⟨S_, .i32⟩) (constantI S_ 32 0#32),
    StableHlo.TRef.binary (.of main_call0_call0_v0 : StableHlo.TRef sig ⟨S_, .i32⟩) (.of main_call0_call0_c : StableHlo.TRef sig ⟨S_, .i32⟩) (.of main_call0_call0_v1 : StableHlo.TRef sig ⟨S_, .i1⟩) (cmpi .eq),
    StableHlo.TRef.nullary (.of main_call0_call0_c_0 : StableHlo.TRef sig ⟨S_, .i32⟩) (constantI S_ 32 1#32),
    StableHlo.TRef.ternary (.of main_call0_call0_v1 : StableHlo.TRef sig ⟨S_, .i1⟩) (.of main_call0_call0_c_0 : StableHlo.TRef sig ⟨S_, .i32⟩) (.of main_call0_call0_v0 : StableHlo.TRef sig ⟨S_, .i32⟩) (.of main_call0_call0_v2 : StableHlo.TRef sig ⟨S_, .i32⟩) select,
    StableHlo.TRef.unary main_call0_call0_call0.v0 (.of main_call0_call0_v3 : StableHlo.TRef sig ⟨S32768, .i32⟩) (broadcastInDim S32768 ![] bcast_S_S32768),
    StableHlo.TRef.binary (.of main_call0_v0 : StableHlo.TRef sig ⟨S32768, .i32⟩) (.of main_call0_call0_v3 : StableHlo.TRef sig ⟨S32768, .i32⟩) (.of main_call0_call0_v4 : StableHlo.TRef sig ⟨S32768, .i32⟩) Host.remsi,
    StableHlo.TRef.nullary (.of main_call0_call0_c_1 : StableHlo.TRef sig ⟨S_, .i32⟩) (constantI S_ 32 0#32),
    StableHlo.TRef.unary (.of main_call0_call0_c_1 : StableHlo.TRef sig ⟨S_, .i32⟩) (.of main_call0_call0_v5 : StableHlo.TRef sig ⟨S32768, .i32⟩) (broadcastInDim S32768 ![] bcast_S_S32768),
    StableHlo.TRef.binary (.of main_call0_call0_v4 : StableHlo.TRef sig ⟨S32768, .i32⟩) (.of main_call0_call0_v5 : StableHlo.TRef sig ⟨S32768, .i32⟩) (.of main_call0_call0_v6 : StableHlo.TRef sig ⟨S32768, .i1⟩) (cmpi .ne),
    StableHlo.TRef.nullary (.of main_call0_call0_c_2 : StableHlo.TRef sig ⟨S_, .i32⟩) (constantI S_ 32 0#32),
    StableHlo.TRef.unary (.of main_call0_call0_c_2 : StableHlo.TRef sig ⟨S_, .i32⟩) (.of main_call0_call0_v7 : StableHlo.TRef sig ⟨S32768, .i32⟩) (broadcastInDim S32768 ![] bcast_S_S32768),
    StableHlo.TRef.binary (.of main_call0_call0_v4 : StableHlo.TRef sig ⟨S32768, .i32⟩) (.of main_call0_call0_v7 : StableHlo.TRef sig ⟨S32768, .i32⟩) (.of main_call0_call0_v8 : StableHlo.TRef sig ⟨S32768, .i1⟩) (cmpi .slt),
    StableHlo.TRef.nullary (.of main_call0_call0_c_3 : StableHlo.TRef sig ⟨S_, .i32⟩) (constantI S_ 32 0#32),
    StableHlo.TRef.binary main_call0_call0_call0.v0 (.of main_call0_call0_c_3 : StableHlo.TRef sig ⟨S_, .i32⟩) (.of main_call0_call0_v9 : StableHlo.TRef sig ⟨S_, .i1⟩) (cmpi .slt),
    StableHlo.TRef.unary (.of main_call0_call0_v9 : StableHlo.TRef sig ⟨S_, .i1⟩) (.of main_call0_call0_v10 : StableHlo.TRef sig ⟨S32768, .i1⟩) (broadcastInDim S32768 ![] bcast_S_S32768),
    StableHlo.TRef.binary (.of main_call0_call0_v8 : StableHlo.TRef sig ⟨S32768, .i1⟩) (.of main_call0_call0_v10 : StableHlo.TRef sig ⟨S32768, .i1⟩) (.of main_call0_call0_v11 : StableHlo.TRef sig ⟨S32768, .i1⟩) (cmpi .ne),
    StableHlo.TRef.binary (.of main_call0_call0_v11 : StableHlo.TRef sig ⟨S32768, .i1⟩) (.of main_call0_call0_v6 : StableHlo.TRef sig ⟨S32768, .i1⟩) (.of main_call0_call0_v12 : StableHlo.TRef sig ⟨S32768, .i1⟩) andi,
    StableHlo.TRef.unary main_call0_call0_call0.v0 (.of main_call0_call0_v13 : StableHlo.TRef sig ⟨S32768, .i32⟩) (broadcastInDim S32768 ![] bcast_S_S32768),
    StableHlo.TRef.binary (.of main_call0_call0_v4 : StableHlo.TRef sig ⟨S32768, .i32⟩) (.of main_call0_call0_v13 : StableHlo.TRef sig ⟨S32768, .i32⟩) (.of main_call0_call0_v14 : StableHlo.TRef sig ⟨S32768, .i32⟩) addi,
    StableHlo.TRef.ternary (.of main_call0_call0_v12 : StableHlo.TRef sig ⟨S32768, .i1⟩) (.of main_call0_call0_v14 : StableHlo.TRef sig ⟨S32768, .i32⟩) (.of main_call0_call0_v4 : StableHlo.TRef sig ⟨S32768, .i32⟩) (.of main_call0_v1 : StableHlo.TRef sig ⟨S32768, .i32⟩) select,
    StableHlo.TRef.nullary (.of main_call0_c_0 : StableHlo.TRef sig ⟨S_, .i32⟩) (constantI S_ 32 64#32),
    StableHlo.TRef.unary (.of main_call0_c_0 : StableHlo.TRef sig ⟨S_, .i32⟩) (.of main_call0_call1_v0 : StableHlo.TRef sig ⟨S_, .i32⟩) id,
    StableHlo.TRef.nullary (.of main_call0_call1_c : StableHlo.TRef sig ⟨S_, .i32⟩) (constantI S_ 32 0#32),
    StableHlo.TRef.binary (.of main_call0_call1_v0 : StableHlo.TRef sig ⟨S_, .i32⟩) (.of main_call0_call1_c : StableHlo.TRef sig ⟨S_, .i32⟩) (.of main_call0_call1_v1 : StableHlo.TRef sig ⟨S_, .i1⟩) (cmpi .eq),
    StableHlo.TRef.nullary (.of main_call0_call1_c_0 : StableHlo.TRef sig ⟨S_, .i32⟩) (constantI S_ 32 1#32),
    StableHlo.TRef.ternary (.of main_call0_call1_v1 : StableHlo.TRef sig ⟨S_, .i1⟩) (.of main_call0_call1_c_0 : StableHlo.TRef sig ⟨S_, .i32⟩) (.of main_call0_call1_v0 : StableHlo.TRef sig ⟨S_, .i32⟩) (.of main_call0_call1_v2 : StableHlo.TRef sig ⟨S_, .i32⟩) select,
    StableHlo.TRef.unary main_call0_call1_call0.v0 (.of main_call0_call1_v3 : StableHlo.TRef sig ⟨S32768, .i32⟩) (broadcastInDim S32768 ![] bcast_S_S32768),
    StableHlo.TRef.binary (main_call0_call0.v15 : StableHlo.TRef sig ⟨S32768, .i32⟩) (.of main_call0_call1_v3 : StableHlo.TRef sig ⟨S32768, .i32⟩) (.of main_call0_call1_v4 : StableHlo.TRef sig ⟨S32768, .i32⟩) Host.remsi,
    StableHlo.TRef.nullary (.of main_call0_call1_c_1 : StableHlo.TRef sig ⟨S_, .i32⟩) (constantI S_ 32 0#32),
    StableHlo.TRef.unary (.of main_call0_call1_c_1 : StableHlo.TRef sig ⟨S_, .i32⟩) (.of main_call0_call1_v5 : StableHlo.TRef sig ⟨S32768, .i32⟩) (broadcastInDim S32768 ![] bcast_S_S32768),
    StableHlo.TRef.binary (.of main_call0_call1_v4 : StableHlo.TRef sig ⟨S32768, .i32⟩) (.of main_call0_call1_v5 : StableHlo.TRef sig ⟨S32768, .i32⟩) (.of main_call0_call1_v6 : StableHlo.TRef sig ⟨S32768, .i1⟩) (cmpi .ne),
    StableHlo.TRef.nullary (.of main_call0_call1_c_2 : StableHlo.TRef sig ⟨S_, .i32⟩) (constantI S_ 32 0#32),
    StableHlo.TRef.unary (.of main_call0_call1_c_2 : StableHlo.TRef sig ⟨S_, .i32⟩) (.of main_call0_call1_v7 : StableHlo.TRef sig ⟨S32768, .i32⟩) (broadcastInDim S32768 ![] bcast_S_S32768),
    StableHlo.TRef.binary (.of main_call0_call1_v4 : StableHlo.TRef sig ⟨S32768, .i32⟩) (.of main_call0_call1_v7 : StableHlo.TRef sig ⟨S32768, .i32⟩) (.of main_call0_call1_v8 : StableHlo.TRef sig ⟨S32768, .i1⟩) (cmpi .slt),
    StableHlo.TRef.nullary (.of main_call0_call1_c_3 : StableHlo.TRef sig ⟨S_, .i32⟩) (constantI S_ 32 0#32),
    StableHlo.TRef.binary main_call0_call1_call0.v0 (.of main_call0_call1_c_3 : StableHlo.TRef sig ⟨S_, .i32⟩) (.of main_call0_call1_v9 : StableHlo.TRef sig ⟨S_, .i1⟩) (cmpi .slt),
    StableHlo.TRef.unary (.of main_call0_call1_v9 : StableHlo.TRef sig ⟨S_, .i1⟩) (.of main_call0_call1_v10 : StableHlo.TRef sig ⟨S32768, .i1⟩) (broadcastInDim S32768 ![] bcast_S_S32768),
    StableHlo.TRef.binary (.of main_call0_call1_v8 : StableHlo.TRef sig ⟨S32768, .i1⟩) (.of main_call0_call1_v10 : StableHlo.TRef sig ⟨S32768, .i1⟩) (.of main_call0_call1_v11 : StableHlo.TRef sig ⟨S32768, .i1⟩) (cmpi .ne),
    StableHlo.TRef.binary (.of main_call0_call1_v11 : StableHlo.TRef sig ⟨S32768, .i1⟩) (.of main_call0_call1_v6 : StableHlo.TRef sig ⟨S32768, .i1⟩) (.of main_call0_call1_v12 : StableHlo.TRef sig ⟨S32768, .i1⟩) andi,
    StableHlo.TRef.unary main_call0_call1_call0.v0 (.of main_call0_call1_v13 : StableHlo.TRef sig ⟨S32768, .i32⟩) (broadcastInDim S32768 ![] bcast_S_S32768),
    StableHlo.TRef.binary (.of main_call0_call1_v4 : StableHlo.TRef sig ⟨S32768, .i32⟩) (.of main_call0_call1_v13 : StableHlo.TRef sig ⟨S32768, .i32⟩) (.of main_call0_call1_v14 : StableHlo.TRef sig ⟨S32768, .i32⟩) addi,
    StableHlo.TRef.ternary (.of main_call0_call1_v12 : StableHlo.TRef sig ⟨S32768, .i1⟩) (.of main_call0_call1_v14 : StableHlo.TRef sig ⟨S32768, .i32⟩) (.of main_call0_call1_v4 : StableHlo.TRef sig ⟨S32768, .i32⟩) (.of main_call0_v2 : StableHlo.TRef sig ⟨S32768, .i32⟩) select ]

/-- From the expert indices and the token rows to the slots, the masks and the dispatched array. -/
abbrev placing : List (HloOp τ sig (Elt F)) :=
  [ StableHlo.TRef.unary (main_call0_call1.v15 : StableHlo.TRef sig ⟨S32768, .i32⟩) (.of main_call0_call2_v0 : StableHlo.TRef sig ⟨S32768x1, .i32⟩) (broadcastInDim S32768x1 ![0] bcast_S32768_S32768x1_0),
    StableHlo.TRef.nullary (.of main_call0_call2_v1 : StableHlo.TRef sig ⟨S1x64, .i32⟩) (iotaInDim S1x64 32 1),
    StableHlo.TRef.unary (.of main_call0_call2_v0 : StableHlo.TRef sig ⟨S32768x1, .i32⟩) (.of main_call0_call2_v2 : StableHlo.TRef sig ⟨S32768x64, .i32⟩) (broadcastInDim S32768x64 ![0, 1] bcast_S32768x1_S32768x64_0_1),
    StableHlo.TRef.unary (.of main_call0_call2_v1 : StableHlo.TRef sig ⟨S1x64, .i32⟩) (.of main_call0_call2_v3 : StableHlo.TRef sig ⟨S32768x64, .i32⟩) (broadcastInDim S32768x64 ![0, 1] bcast_S1x64_S32768x64_0_1),
    StableHlo.TRef.binary (.of main_call0_call2_v2 : StableHlo.TRef sig ⟨S32768x64, .i32⟩) (.of main_call0_call2_v3 : StableHlo.TRef sig ⟨S32768x64, .i32⟩) (.of main_call0_call2_v4 : StableHlo.TRef sig ⟨S32768x64, .i1⟩) (cmpi .eq),
    StableHlo.TRef.unary (.of main_call0_call2_v4 : StableHlo.TRef sig ⟨S32768x64, .i1⟩) (.of main_call0_v3 : StableHlo.TRef sig ⟨S32768x64, .i32⟩) (extui 32 · natLt_1_32),
    StableHlo.TRef.nullary (.of main_call0_call3_call0_c : StableHlo.TRef sig ⟨S_, .i32⟩) (constantI S_ 32 0#32),
    StableHlo.TRef.unary (.of main_call0_call3_call0_c : StableHlo.TRef sig ⟨S_, .i32⟩) (.of main_call0_call3_call0_v0 : StableHlo.TRef sig ⟨S_, .i32⟩) (broadcastInDim S_ ![] bcast_S_S_),
    StableHlo.TRef.binary (main_call0_call2.v5 : StableHlo.TRef sig ⟨S32768x64, .i32⟩) (.of main_call0_call3_call0_v0 : StableHlo.TRef sig ⟨S_, .i32⟩) (.of main_call0_v4 : StableHlo.TRef sig ⟨S32768x64, .i32⟩) (fun x v => Host.reduceWindow IntOp.addi ![32768, 1] ![1, 1] ![32767, 0] ![0, 0] x v reduceWindows_S32768x64_S32768x64_w32768s1p32767_0_w1s1p0_0 h_S_),
    StableHlo.TRef.binary main_call0_call3.call0.v1 main_call0_call2.v5 (.of main_call0_v5 : StableHlo.TRef sig ⟨S32768x64, .i32⟩) muli,
    StableHlo.TRef.nullary (.of main_call0_c_1 : StableHlo.TRef sig ⟨S_, .i32⟩) (constantI S_ 32 0#32),
    StableHlo.TRef.binary (.of main_call0_v5 : StableHlo.TRef sig ⟨S32768x64, .i32⟩) (.of main_call0_c_1 : StableHlo.TRef sig ⟨S_, .i32⟩) (.of main_call0_v6 : StableHlo.TRef sig ⟨S32768, .i32⟩) (fun x v => Host.reduce IntOp.addi x v reducesTo_S32768x64_S32768_d1 h_S_),
    StableHlo.TRef.nullary (.of main_call0_c_2 : StableHlo.TRef sig ⟨S_, .i32⟩) (constantI S_ 32 1#32),
    StableHlo.TRef.unary (.of main_call0_c_2 : StableHlo.TRef sig ⟨S_, .i32⟩) (.of main_call0_v7 : StableHlo.TRef sig ⟨S32768, .i32⟩) (broadcastInDim S32768 ![] bcast_S_S32768),
    StableHlo.TRef.binary (.of main_call0_v6 : StableHlo.TRef sig ⟨S32768, .i32⟩) (.of main_call0_v7 : StableHlo.TRef sig ⟨S32768, .i32⟩) (.of main_call0_v8 : StableHlo.TRef sig ⟨S32768, .i32⟩) subi,
    StableHlo.TRef.nullary (.of main_call0_c_3 : StableHlo.TRef sig ⟨S_, .i32⟩) (constantI S_ 32 512#32),
    StableHlo.TRef.unary (.of main_call0_c_3 : StableHlo.TRef sig ⟨S_, .i32⟩) (.of main_call0_v9 : StableHlo.TRef sig ⟨S32768, .i32⟩) (broadcastInDim S32768 ![] bcast_S_S32768),
    StableHlo.TRef.binary (.of main_call0_v8 : StableHlo.TRef sig ⟨S32768, .i32⟩) (.of main_call0_v9 : StableHlo.TRef sig ⟨S32768, .i32⟩) (.of main_call0_v10 : StableHlo.TRef sig ⟨S32768, .i1⟩) (cmpi .slt),
    StableHlo.TRef.reshape (.of main_arg0 : StableHlo.TRef sig ⟨S8x4096x512, .f32⟩) (.of main_call0_v11 : StableHlo.TRef sig ⟨S32768x512, .f32⟩) rfl shapeCasts_S8x4096x512_S32768x512,
    StableHlo.TRef.nullary (.of main_call0_c_4 : StableHlo.TRef sig ⟨S_, .i32⟩) (constantI S_ 32 512#32),
    StableHlo.TRef.unary (.of main_call0_c_4 : StableHlo.TRef sig ⟨S_, .i32⟩) (.of main_call0_call4_v0 : StableHlo.TRef sig ⟨S_, .i32⟩) id,
    StableHlo.TRef.unary (.of main_call0_call4_v0 : StableHlo.TRef sig ⟨S_, .i32⟩) (.of main_call0_call4_v1 : StableHlo.TRef sig ⟨S32768, .i32⟩) (broadcastInDim S32768 ![] bcast_S_S32768),
    StableHlo.TRef.ternary (.of main_call0_v10 : StableHlo.TRef sig ⟨S32768, .i1⟩) (.of main_call0_v8 : StableHlo.TRef sig ⟨S32768, .i32⟩) (.of main_call0_call4_v1 : StableHlo.TRef sig ⟨S32768, .i32⟩) (.of main_call0_v12 : StableHlo.TRef sig ⟨S32768, .i32⟩) select,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v13 : StableHlo.TRef sig ⟨S64x512x512, .f32⟩) (broadcastInDim S64x512x512 ![] bcast_S_S64x512x512),
    StableHlo.TRef.nullary (.of main_call0_c_5 : StableHlo.TRef sig ⟨S_, .i32⟩) (constantI S_ 32 0#32),
    StableHlo.TRef.unary (.of main_call0_c_5 : StableHlo.TRef sig ⟨S_, .i32⟩) (.of main_call0_v14 : StableHlo.TRef sig ⟨S32768, .i32⟩) (broadcastInDim S32768 ![] bcast_S_S32768),
    StableHlo.TRef.binary main_call0_call1.v15 (.of main_call0_v14 : StableHlo.TRef sig ⟨S32768, .i32⟩) (.of main_call0_v15 : StableHlo.TRef sig ⟨S32768, .i1⟩) (cmpi .slt),
    StableHlo.TRef.nullary (.of main_call0_c_6 : StableHlo.TRef sig ⟨S_, .i32⟩) (constantI S_ 32 64#32),
    StableHlo.TRef.unary (.of main_call0_c_6 : StableHlo.TRef sig ⟨S_, .i32⟩) (.of main_call0_v16 : StableHlo.TRef sig ⟨S32768, .i32⟩) (broadcastInDim S32768 ![] bcast_S_S32768),
    StableHlo.TRef.binary main_call0_call1.v15 (.of main_call0_v16 : StableHlo.TRef sig ⟨S32768, .i32⟩) (.of main_call0_v17 : StableHlo.TRef sig ⟨S32768, .i32⟩) addi,
    StableHlo.TRef.ternary (.of main_call0_v15 : StableHlo.TRef sig ⟨S32768, .i1⟩) (.of main_call0_v17 : StableHlo.TRef sig ⟨S32768, .i32⟩) main_call0_call1.v15 (.of main_call0_v18 : StableHlo.TRef sig ⟨S32768, .i32⟩) select,
    StableHlo.TRef.nullary (.of main_call0_c_7 : StableHlo.TRef sig ⟨S_, .i32⟩) (constantI S_ 32 0#32),
    StableHlo.TRef.unary (.of main_call0_c_7 : StableHlo.TRef sig ⟨S_, .i32⟩) (.of main_call0_v19 : StableHlo.TRef sig ⟨S32768, .i32⟩) (broadcastInDim S32768 ![] bcast_S_S32768),
    StableHlo.TRef.binary main_call0_call4.v2 (.of main_call0_v19 : StableHlo.TRef sig ⟨S32768, .i32⟩) (.of main_call0_v20 : StableHlo.TRef sig ⟨S32768, .i1⟩) (cmpi .slt),
    StableHlo.TRef.nullary (.of main_call0_c_8 : StableHlo.TRef sig ⟨S_, .i32⟩) (constantI S_ 32 512#32),
    StableHlo.TRef.unary (.of main_call0_c_8 : StableHlo.TRef sig ⟨S_, .i32⟩) (.of main_call0_v21 : StableHlo.TRef sig ⟨S32768, .i32⟩) (broadcastInDim S32768 ![] bcast_S_S32768),
    StableHlo.TRef.binary main_call0_call4.v2 (.of main_call0_v21 : StableHlo.TRef sig ⟨S32768, .i32⟩) (.of main_call0_v22 : StableHlo.TRef sig ⟨S32768, .i32⟩) addi,
    StableHlo.TRef.ternary (.of main_call0_v20 : StableHlo.TRef sig ⟨S32768, .i1⟩) (.of main_call0_v22 : StableHlo.TRef sig ⟨S32768, .i32⟩) main_call0_call4.v2 (.of main_call0_v23 : StableHlo.TRef sig ⟨S32768, .i32⟩) select,
    StableHlo.TRef.unary (.of main_call0_v18 : StableHlo.TRef sig ⟨S32768, .i32⟩) (.of main_call0_v24 : StableHlo.TRef sig ⟨S32768x1, .i32⟩) (broadcastInDim S32768x1 ![0] bcast_S32768_S32768x1_0),
    StableHlo.TRef.unary (.of main_call0_v23 : StableHlo.TRef sig ⟨S32768, .i32⟩) (.of main_call0_v25 : StableHlo.TRef sig ⟨S32768x1, .i32⟩) (broadcastInDim S32768x1 ![0] bcast_S32768_S32768x1_0),
    StableHlo.TRef.binary (.of main_call0_v24 : StableHlo.TRef sig ⟨S32768x1, .i32⟩) (.of main_call0_v25 : StableHlo.TRef sig ⟨S32768x1, .i32⟩) (.of main_call0_v26 : StableHlo.TRef sig ⟨S32768x2, .i32⟩) (fun a b => concatenate S32768x2 1 [⟨S32768x1, a⟩, ⟨S32768x1, b⟩] concatenates_S32768x1_S32768x1_S32768x2_d1),
    StableHlo.TRef.ternary (.of main_call0_v13 : StableHlo.TRef sig ⟨S64x512x512, .f32⟩) (.of main_call0_v26 : StableHlo.TRef sig ⟨S32768x2, .i32⟩) (.of main_call0_v11 : StableHlo.TRef sig ⟨S32768x512, .f32⟩) (.of main_call0_v27 : StableHlo.TRef sig ⟨S64x512x512, .f32⟩) (fun x i u => Host.scatter scatter_S64x512x512_S32768x2_S32768x512_1_01_01_1 (fun _ b => b) x i u) ]

set_option maxHeartbeats 4000000 in
theorem hostOps0_eq : (hostOps0 : List (HloOp τ sig (Elt F))) = hashing ++ placing := rfl

theorem after_hostOps0 (V : Valuation τ sig (Elt F)) : after hostOps0 V = after placing (after hashing V) := by
  rw [hostOps0_eq, after_append]

end Cert.Moe.KSplit

end
-- ==== Proof.RSplit.lean ====
/-
  The reference's routing, in two halves.

  The reference's routing is cut after the expert index is complete: the first half hashes the token ids into expert indices,
  the second finds every token's slot and mask and scatters the token rows.
-/
import proofs.«150590_j69355131896109_2_alg».proof.Proof.RefRun

set_option maxRecDepth 65536

noncomputable section

namespace Cert.Moe.RSplit

open Cert.ReferenceIdeal Cert.ReferenceIdeal.Gen Idealize.ShloMosaic Idealize.ShloMosaic.TcCoe Idealize.ShloMosaic.StableHlo

variable {F : FTy → Type} [FloatOps F]

/-- From the token ids to the expert index of every token. -/
abbrev hashing : List (HloOp τ sig (Elt F)) :=
  [ StableHlo.reshape main_arg1 main_v0 rfl shapeCasts_S8x4096_S32768,
    StableHlo.nullary main_c (constantI S_ 32 5099#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S32768 ![] bcast_S_S32768),
    StableHlo.TRef.binary (.of main_v0 : StableHlo.TRef sig ⟨S32768, .i32⟩) main_call0.v3 main_call0.v4 Host.remsi,
    StableHlo.TRef.nullary main_call0.c_1 (constantI S_ 32 0#32),
    StableHlo.TRef.unary main_call0.c_1 main_call0.v5 (broadcastInDim S32768 ![] bcast_S_S32768),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S32768 ![] bcast_S_S32768),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S32768 ![] bcast_S_S32768),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S32768 ![] bcast_S_S32768),
    StableHlo.TRef.binary main_call0.v4 main_call0.v13 main_call0.v14 addi,
    StableHlo.TRef.ternary main_call0.v12 main_call0.v14 main_call0.v4 main_call0.v15 select,
    StableHlo.nullary main_c_0 (constantI S_ 32 64#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S32768 ![] bcast_S_S32768),
    StableHlo.TRef.binary (.of main_v1 : StableHlo.TRef sig ⟨S32768, .i32⟩) main_call1.v3 main_call1.v4 Host.remsi,
    StableHlo.TRef.nullary main_call1.c_1 (constantI S_ 32 0#32),
    StableHlo.TRef.unary main_call1.c_1 main_call1.v5 (broadcastInDim S32768 ![] bcast_S_S32768),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S32768 ![] bcast_S_S32768),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S32768 ![] bcast_S_S32768),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S32768 ![] bcast_S_S32768),
    StableHlo.TRef.binary main_call1.v4 main_call1.v13 main_call1.v14 addi,
    StableHlo.TRef.ternary main_call1.v12 main_call1.v14 main_call1.v4 main_call1.v15 select ]

/-- From the expert indices and the token rows to the slots, the masks and the dispatched array. -/
abbrev placing : List (HloOp τ sig (Elt F)) :=
  [ StableHlo.TRef.unary (.of main_v2 : StableHlo.TRef sig ⟨S32768, .i32⟩) main_call2.v0 (broadcastInDim S32768x1 ![0] bcast_S32768_S32768x1_0),
    StableHlo.TRef.nullary main_call2.v1 (iotaInDim S1x64 32 1),
    StableHlo.TRef.unary main_call2.v0 main_call2.v2 (broadcastInDim S32768x64 ![0, 1] bcast_S32768x1_S32768x64_0_1),
    StableHlo.TRef.unary main_call2.v1 main_call2.v3 (broadcastInDim S32768x64 ![0, 1] bcast_S1x64_S32768x64_0_1),
    StableHlo.TRef.binary main_call2.v2 main_call2.v3 main_call2.v4 (cmpi .eq),
    StableHlo.TRef.unary main_call2.v4 main_call2.v5 (extui 32 · natLt_1_32),
    StableHlo.TRef.nullary main_call3.call0.c (constantI S_ 32 0#32),
    StableHlo.TRef.unary main_call3.call0.c main_call3.call0.v0 (broadcastInDim S_ ![] bcast_S_S_),
    StableHlo.TRef.binary (.of main_v3 : StableHlo.TRef sig ⟨S32768x64, .i32⟩) main_call3.call0.v0 main_call3.call0.v1 (fun x v => Host.reduceWindow IntOp.addi ![32768, 1] ![1, 1] ![32767, 0] ![0, 0] x v reduceWindows_S32768x64_S32768x64_w32768s1p32767_0_w1s1p0_0 h_S_),
    StableHlo.binary main_v4 main_v3 main_v5 (muli : (⟨S32768x64, .i32⟩ : BufTy).Contents (Elt F) → (⟨S32768x64, .i32⟩ : BufTy).Contents (Elt F) → (⟨S32768x64, .i32⟩ : BufTy).Contents (Elt F)),
    StableHlo.nullary main_c_1 (constantI S_ 32 0#32),
    StableHlo.binary main_v5 main_c_1 main_v6 ((fun x v => Host.reduce IntOp.addi x v reducesTo_S32768x64_S32768_d1 h_S_) : (⟨S32768x64, .i32⟩ : BufTy).Contents (Elt F) → (⟨S_, .i32⟩ : BufTy).Contents (Elt F) → (⟨S32768, .i32⟩ : BufTy).Contents (Elt F)),
    StableHlo.nullary main_c_2 (constantI S_ 32 1#32),
    StableHlo.unary main_c_2 main_v7 (broadcastInDim S32768 ![] bcast_S_S32768 : (⟨S_, .i32⟩ : BufTy).Contents (Elt F) → (⟨S32768, .i32⟩ : BufTy).Contents (Elt F)),
    StableHlo.binary main_v6 main_v7 main_v8 (subi : (⟨S32768, .i32⟩ : BufTy).Contents (Elt F) → (⟨S32768, .i32⟩ : BufTy).Contents (Elt F) → (⟨S32768, .i32⟩ : BufTy).Contents (Elt F)),
    StableHlo.nullary main_c_3 (constantI S_ 32 512#32),
    StableHlo.unary main_c_3 main_v9 (broadcastInDim S32768 ![] bcast_S_S32768 : (⟨S_, .i32⟩ : BufTy).Contents (Elt F) → (⟨S32768, .i32⟩ : BufTy).Contents (Elt F)),
    StableHlo.binary main_v8 main_v9 main_v10 (cmpi .slt : (⟨S32768, .i32⟩ : BufTy).Contents (Elt F) → (⟨S32768, .i32⟩ : BufTy).Contents (Elt F) → (⟨S32768, .i1⟩ : BufTy).Contents (Elt F)),
    StableHlo.reshape main_arg0 main_v11 rfl shapeCasts_S8x4096x512_S32768x512,
    StableHlo.nullary main_c_4 (constantI S_ 32 512#32),
    StableHlo.TRef.unary (.of main_c_4 : StableHlo.TRef sig ⟨S_, .i32⟩) main_call4.v0 id,
    StableHlo.TRef.unary main_call4.v0 main_call4.v1 (broadcastInDim S32768 ![] bcast_S_S32768),
    StableHlo.TRef.ternary (.of main_v10 : StableHlo.TRef sig ⟨S32768, .i1⟩) (.of main_v8 : StableHlo.TRef sig ⟨S32768, .i32⟩) main_call4.v1 main_call4.v2 select,
    StableHlo.nullary main_cst (constant S_ .f32 0x00000000#32),
    StableHlo.unary main_cst main_v13 (broadcastInDim S64x512x512 ![] bcast_S_S64x512x512 : (⟨S_, .f32⟩ : BufTy).Contents (Elt F) → (⟨S64x512x512, .f32⟩ : BufTy).Contents (Elt F)),
    StableHlo.nullary main_c_5 (constantI S_ 32 0#32),
    StableHlo.unary main_c_5 main_v14 (broadcastInDim S32768 ![] bcast_S_S32768 : (⟨S_, .i32⟩ : BufTy).Contents (Elt F) → (⟨S32768, .i32⟩ : BufTy).Contents (Elt F)),
    StableHlo.binary main_v2 main_v14 main_v15 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 64#32),
    StableHlo.unary main_c_6 main_v16 (broadcastInDim S32768 ![] bcast_S_S32768 : (⟨S_, .i32⟩ : BufTy).Contents (Elt F) → (⟨S32768, .i32⟩ : BufTy).Contents (Elt F)),
    StableHlo.binary main_v2 main_v16 main_v17 (addi : (⟨S32768, .i32⟩ : BufTy).Contents (Elt F) → (⟨S32768, .i32⟩ : BufTy).Contents (Elt F) → (⟨S32768, .i32⟩ : BufTy).Contents (Elt F)),
    StableHlo.ternary main_v15 main_v17 main_v2 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_7 (constantI S_ 32 0#32),
    StableHlo.unary main_c_7 main_v19 (broadcastInDim S32768 ![] bcast_S_S32768 : (⟨S_, .i32⟩ : BufTy).Contents (Elt F) → (⟨S32768, .i32⟩ : BufTy).Contents (Elt F)),
    StableHlo.binary main_v12 main_v19 main_v20 (cmpi .slt : (⟨S32768, .i32⟩ : BufTy).Contents (Elt F) → (⟨S32768, .i32⟩ : BufTy).Contents (Elt F) → (⟨S32768, .i1⟩ : BufTy).Contents (Elt F)),
    StableHlo.nullary main_c_8 (constantI S_ 32 512#32),
    StableHlo.unary main_c_8 main_v21 (broadcastInDim S32768 ![] bcast_S_S32768 : (⟨S_, .i32⟩ : BufTy).Contents (Elt F) → (⟨S32768, .i32⟩ : BufTy).Contents (Elt F)),
    StableHlo.binary main_v12 main_v21 main_v22 (addi : (⟨S32768, .i32⟩ : BufTy).Contents (Elt F) → (⟨S32768, .i32⟩ : BufTy).Contents (Elt F) → (⟨S32768, .i32⟩ : BufTy).Contents (Elt F)),
    StableHlo.ternary main_v20 main_v22 main_v12 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v18 main_v24 (broadcastInDim S32768x1 ![0] bcast_S32768_S32768x1_0 : (⟨S32768, .i32⟩ : BufTy).Contents (Elt F) → (⟨S32768x1, .i32⟩ : BufTy).Contents (Elt F)),
    StableHlo.unary main_v23 main_v25 (broadcastInDim S32768x1 ![0] bcast_S32768_S32768x1_0 : (⟨S32768, .i32⟩ : BufTy).Contents (Elt F) → (⟨S32768x1, .i32⟩ : BufTy).Contents (Elt F)),
    StableHlo.binary main_v24 main_v25 main_v26 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.ternary main_v13 main_v26 main_v11 main_v27 ((fun x i u => Host.scatter scatter_S64x512x512_S32768x2_S32768x512_1_01_01_1 (fun _ b => b) x i u) : (⟨S64x512x512, .f32⟩ : BufTy).Contents (Elt F) → (⟨S32768x2, .i32⟩ : BufTy).Contents (Elt F) → (⟨S32768x512, .f32⟩ : BufTy).Contents (Elt F) → (⟨S64x512x512, .f32⟩ : BufTy).Contents (Elt F)) ]

set_option maxHeartbeats 4000000 in
theorem opsA_eq : (RefRun.opsA : List (HloOp τ sig (Elt F))) = hashing ++ placing := rfl

theorem after_opsA (V : Valuation τ sig (Elt F)) : after RefRun.opsA V = after placing (after hashing V) := by
  rw [opsA_eq, after_append]

end Cert.Moe.RSplit

end
-- ==== Proof.RefFfnDef.lean ====
/-
  The reference's expert stage as one function of the dispatched tokens and the three weight stacks.

  The reference computes, for all 64 experts at once, three batched products (each contracts the last axis of both
  operands and batches over the expert axis), rectifies and squares the first, spells the logistic gate as
  `1 / (1 + exp (-z))`, and multiplies gate and value product. `refFFN` is that composition, operation for operation.
-/
import proofs.«150590_j69355131896109_2_alg».proof.Proof.Gen.ReferenceIdeal
import Idealize.ShloMosaic.PureOps.Ideal

noncomputable section

namespace Cert.Moe

open Idealize.ShloMosaic Cert.ReferenceIdeal Cert.ReferenceIdeal.Gen

/-- The batched expert stage of the reference at the extended reals: from the dispatched tokens `disp` [64, 512, 512] and
    the key, receptance and value stacks, the gated output [64, 512, 512]. -/
def refFFN (disp : FVec Ideal S64x512x512 .f32) (Wk : FVec Ideal S64x1792x512 .f32) (Wr : FVec Ideal S64x512x512 .f32)
    (Wv : FVec Ideal S64x512x1792 .f32) : FVec Ideal S64x512x512 .f32 :=
  let h : FVec Ideal S64x512x1792 .f32 :=
    maximumf (Host.dotGeneral dot_S64x512x512_S64x1792x512_S64x512x1792_2_2_1_1_0_0 none disp Wk)
      (broadcastInDim S64x512x1792 ![] bcast_S_S64x512x1792 (constant (F := Ideal) S_ .f32 0x00000000#32))
  let kv : FVec Ideal S64x512x512 .f32 :=
    Host.dotGeneral dot_S64x512x1792_S64x512x1792_S64x512x512_2_2_1_1_0_0 none (mulf h h) Wv
  let z : FVec Ideal S64x512x512 .f32 :=
    Host.dotGeneral dot_S64x512x512_S64x512x512_S64x512x512_2_2_1_1_0_0 none disp Wr
  mulf
    (Host.divf (broadcastInDim S64x512x512 ![] bcast_S_S64x512x512 (constant (F := Ideal) S_ .f32 0x3F800000#32))
      (addf (broadcastInDim S64x512x512 ![] bcast_S_S64x512x512 (constant (F := Ideal) S_ .f32 0x3F800000#32))
        (Host.exp (Host.negf z))))
    kv

end Cert.Moe

end
-- ==== Proof.LibTypedRef.lean ====
/-
  A value carried through a typed reference.

  A typed reference pairs a buffer with the type its value has; contents at the value's type are carried to contents of the
  buffer, and back, by transport along the equation between the two types. Carried there and back a value is unchanged, whatever
  the reference (`ofBuf_toBuf`, `toBuf_ofBuf`): the equation is eliminated once, on the reference as a variable. A host
  program's composed term in which a called function's operations stand inline carries one such pair around every value of
  the inlined body; rewriting with these two lemmas removes every pair, so that what is left to compare is the operations' own
  term, and no comparison has to see through a transport.
-/
import Idealize.ShloMosaic.Lib.StableHlo

noncomputable section

namespace Cert.Lib.TypedRef

open Idealize.ShloMosaic Idealize.ShloMosaic.StableHlo

variable {sig : RefSig} {Val : EltTy → Type} {T : BufTy}

/-- Carried to the buffer's type and back, a value is unchanged. -/
theorem ofBuf_toBuf (x : TRef sig T) (v : T.Contents Val) : x.ofBuf (x.toBuf v) = v := by
  obtain ⟨r, h, h1, h2⟩ := x
  subst h
  rfl

/-- Carried to the value's type and back, a buffer's contents are unchanged. -/
theorem toBuf_ofBuf (x : TRef sig T) (v : x.ref.ty.Contents Val) : x.toBuf (x.ofBuf v) = v := by
  obtain ⟨r, h, h1, h2⟩ := x
  subst h
  rfl

end Cert.Lib.TypedRef

end
-- ==== Proof.LibReadStretch.lean ====
/-
  Reading a stretch of host operations through a two-operand concatenation.

  The contents a buffer holds after a line of host operations are found by rewriting each operation's result at its own buffer
  to its function's value and at any other buffer to what was there. A concatenation takes its operands as a list of
  shape-tagged vectors together with a witness about the list's tags; because the witness speaks of the list, a rewriting pass
  treats the whole list as fixed and stops there. `cat2` is the same concatenation with its two operands as plain arguments
  and a witness about the two tags only, so the pass goes on into the operands. `read_stretch` is the one-pass reading of a
  stretch with that folding added.
-/
import Idealize.ShloMosaic.Lib.StableHlo.Run

noncomputable section

namespace Idealize.ShloMosaic

/-- The concatenation of two vectors along axis `a` of `t`, its operands as arguments. -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A printed two-operand concatenation is `cat2` of its operands. -/
theorem concatenate_two {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

namespace StableHlo

/-- One pass over a stretch's fold at a buffer: each operation's result at its own buffer becomes its function's value, at any
    other buffer what was there (the buffers' inequality decided), and a two-operand concatenation is folded to `cat2` so that
    the pass reads its operands too. -/
macro "read_stretch" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_two]))

end StableHlo

end Idealize.ShloMosaic

end
-- ==== Proof.Folds.lean ====
/-
  The two programs' routing and combination are the same operations.

  Around the experts' stage the kernel's program and the reference run the same host operations on the same values: the
  routing that turns token ids and token rows into the dispatched array, the expert index, the slot and the capacity mask,
  and the combination that gathers each token's slot from the experts' outputs and masks it. Each program's buffers after
  such a stretch are a fold of its operations over the buffers before; read at corresponding buffers the two folds are the
  same term of the same starting values, whatever the routing computes. So the routing and the combination are never
  opened: only the values going in are compared. The routing is read in two halves (up to the expert index, and from
  there on). The reference's middle stretch is read as `refFFN` of the dispatched array and the weights, and the buffers
  it does not write are kept.
-/
import proofs.«150590_j69355131896109_2_alg».proof.Proof.KSplit
import proofs.«150590_j69355131896109_2_alg».proof.Proof.RSplit
import proofs.«150590_j69355131896109_2_alg».proof.Proof.RefFfnDef
import proofs.«150590_j69355131896109_2_alg».proof.Proof.LibTypedRef
import proofs.«150590_j69355131896109_2_alg».proof.Proof.LibReadStretch

set_option maxRecDepth 65536

noncomputable section

namespace Cert.Moe.Folds

open Idealize.ShloMosaic Idealize.ShloMosaic.TcCoe Idealize.ShloMosaic.StableHlo Cert.Lib.TypedRef

variable {F : FTy → Type} [FloatOps F]

/-! ## The first half of the routing: token ids to expert indices -/

section Hashing

variable (VK : Valuation Cert.KernelIdeal.τ Cert.KernelIdeal.sig (Elt F)) (VR : Valuation Cert.ReferenceIdeal.τ Cert.ReferenceIdeal.sig (Elt F))

attribute [local irreducible] Host.reduceWindow Host.reduce Host.scatter Host.gather Host.remsi in
set_option maxHeartbeats 4000000 in
/-- The expert index of every token is the same term of the token ids in both programs. -/
theorem hashing_expert (tok : (⟨Cert.ReferenceIdeal.S8x4096, .i32⟩ : BufTy).Contents (Elt F))
    (hK1 : VK (Proc.devRef .tc Cert.KernelIdeal.main_arg1) = tok) (hR1 : VR (Proc.devRef .tc Cert.ReferenceIdeal.main_arg1) = tok) :
    after (KSplit.hashing (F := F)) VK (Proc.devRef .tc Cert.KernelIdeal.main_call0_v2)
      = after (RSplit.hashing (F := F)) VR (Proc.devRef .tc Cert.ReferenceIdeal.main_v2) := by
  read_stretch
  simp only [hK1, hR1, ofBuf_toBuf, toBuf_ofBuf]
  try simp only [TRef.toBuf, TRef.ofBuf]
  repeat rw [cast_eq]
  all_goals rfl

set_option maxHeartbeats 4000000 in
/-- The first half writes the token rows in neither program. -/
theorem hashing_keeps_rows_k : after (KSplit.hashing (F := F)) VK (Proc.devRef .tc Cert.KernelIdeal.main_arg0) = VK (Proc.devRef .tc Cert.KernelIdeal.main_arg0) := by
  read_stretch
set_option maxHeartbeats 4000000 in
theorem hashing_keeps_rows_r : after (RSplit.hashing (F := F)) VR (Proc.devRef .tc Cert.ReferenceIdeal.main_arg0) = VR (Proc.devRef .tc Cert.ReferenceIdeal.main_arg0) := by
  read_stretch

end Hashing

/-! ## The second half: expert indices and token rows to slots, masks and the dispatched array -/

section Placing

variable (WK : Valuation Cert.KernelIdeal.τ Cert.KernelIdeal.sig (Elt F)) (WR : Valuation Cert.ReferenceIdeal.τ Cert.ReferenceIdeal.sig (Elt F))
  (e : (⟨Cert.ReferenceIdeal.S32768, .i32⟩ : BufTy).Contents (Elt F)) (x : (⟨Cert.ReferenceIdeal.S8x4096x512, .f32⟩ : BufTy).Contents (Elt F))
  (hKe : WK (Proc.devRef .tc Cert.KernelIdeal.main_call0_v2) = e) (hRe : WR (Proc.devRef .tc Cert.ReferenceIdeal.main_v2) = e)
  (hK0 : WK (Proc.devRef .tc Cert.KernelIdeal.main_arg0) = x) (hR0 : WR (Proc.devRef .tc Cert.ReferenceIdeal.main_arg0) = x)

include hKe hRe hK0 hR0 in
attribute [local irreducible] Host.reduceWindow Host.reduce Host.scatter Host.gather Host.remsi in
set_option maxHeartbeats 4000000 in
/-- The dispatched array: the scatter's result is the same term of the expert indices and the token rows. -/
theorem placing_dispatched :
    after (KSplit.placing (F := F)) WK (Proc.devRef .tc Cert.KernelIdeal.main_call0_v27)
      = after (RSplit.placing (F := F)) WR (Proc.devRef .tc Cert.ReferenceIdeal.main_v27) := by
  read_stretch
  simp only [hKe, hRe, hK0, hR0, ofBuf_toBuf, toBuf_ofBuf]
  try simp only [TRef.toBuf, TRef.ofBuf]
  repeat rw [cast_eq]
  all_goals rfl

include hKe hRe in
attribute [local irreducible] Host.reduceWindow Host.reduce Host.scatter Host.gather Host.remsi in
set_option maxHeartbeats 4000000 in
/-- The slot of every token within its expert. -/
theorem placing_slot :
    after (KSplit.placing (F := F)) WK (Proc.devRef .tc Cert.KernelIdeal.main_call0_v8)
      = after (RSplit.placing (F := F)) WR (Proc.devRef .tc Cert.ReferenceIdeal.main_v8) := by
  read_stretch
  simp only [hKe, hRe, ofBuf_toBuf, toBuf_ofBuf]
  try simp only [TRef.toBuf, TRef.ofBuf]
  repeat rw [cast_eq]
  all_goals rfl

include hKe hRe in
attribute [local irreducible] Host.reduceWindow Host.reduce Host.scatter Host.gather Host.remsi in
set_option maxHeartbeats 4000000 in
/-- The capacity mask of every token. -/
theorem placing_kept :
    after (KSplit.placing (F := F)) WK (Proc.devRef .tc Cert.KernelIdeal.main_call0_v10)
      = after (RSplit.placing (F := F)) WR (Proc.devRef .tc Cert.ReferenceIdeal.main_v10) := by
  read_stretch
  simp only [hKe, hRe, ofBuf_toBuf, toBuf_ofBuf]
  try simp only [TRef.toBuf, TRef.ofBuf]
  repeat rw [cast_eq]
  all_goals rfl

set_option maxHeartbeats 4000000 in
/-- The second half does not write the expert index. -/
theorem placing_keeps_expert_k : after (KSplit.placing (F := F)) WK (Proc.devRef .tc Cert.KernelIdeal.main_call0_v2) = WK (Proc.devRef .tc Cert.KernelIdeal.main_call0_v2) := by
  read_stretch
set_option maxHeartbeats 4000000 in
theorem placing_keeps_expert_r : after (RSplit.placing (F := F)) WR (Proc.devRef .tc Cert.ReferenceIdeal.main_v2) = WR (Proc.devRef .tc Cert.ReferenceIdeal.main_v2) := by
  read_stretch

end Placing

/-! ## The whole routing -/

section Routing

variable (VK : Valuation Cert.KernelIdeal.τ Cert.KernelIdeal.sig (Elt F)) (VR : Valuation Cert.ReferenceIdeal.τ Cert.ReferenceIdeal.sig (Elt F))
  (tok : (⟨Cert.ReferenceIdeal.S8x4096, .i32⟩ : BufTy).Contents (Elt F)) (x : (⟨Cert.ReferenceIdeal.S8x4096x512, .f32⟩ : BufTy).Contents (Elt F))
  (hK1 : VK (Proc.devRef .tc Cert.KernelIdeal.main_arg1) = tok) (hK0 : VK (Proc.devRef .tc Cert.KernelIdeal.main_arg0) = x)
  (hR1 : VR (Proc.devRef .tc Cert.ReferenceIdeal.main_arg1) = tok) (hR0 : VR (Proc.devRef .tc Cert.ReferenceIdeal.main_arg0) = x)

include hK1 hK0 hR1 hR0

/-- The dispatched array. -/
theorem dispatched_eq :
    after (Cert.KernelIdeal.Gen.hostOps0 (F := F)) VK (Proc.devRef .tc Cert.KernelIdeal.main_call0_v27)
      = after (RefRun.opsA (F := F)) VR (Proc.devRef .tc Cert.ReferenceIdeal.main_v27) := by
  rw [KSplit.after_hostOps0, RSplit.after_opsA]
  exact placing_dispatched _ _ _ x (hashing_expert VK VR tok hK1 hR1) rfl
    ((hashing_keeps_rows_k VK).trans hK0) ((hashing_keeps_rows_r VR).trans hR0)

/-- The expert index of every token. -/
theorem expert_eq :
    after (Cert.KernelIdeal.Gen.hostOps0 (F := F)) VK (Proc.devRef .tc Cert.KernelIdeal.main_call0_v2)
      = after (RefRun.opsA (F := F)) VR (Proc.devRef .tc Cert.ReferenceIdeal.main_v2) := by
  rw [KSplit.after_hostOps0, RSplit.after_opsA, placing_keeps_expert_k, placing_keeps_expert_r]
  exact hashing_expert VK VR tok hK1 hR1

/-- The slot of every token within its expert. -/
theorem slot_eq :
    after (Cert.KernelIdeal.Gen.hostOps0 (F := F)) VK (Proc.devRef .tc Cert.KernelIdeal.main_call0_v8)
      = after (RefRun.opsA (F := F)) VR (Proc.devRef .tc Cert.ReferenceIdeal.main_v8) := by
  rw [KSplit.after_hostOps0, RSplit.after_opsA]
  exact placing_slot _ _ _ (hashing_expert VK VR tok hK1 hR1) rfl

/-- The capacity mask of every token. -/
theorem kept_eq :
    after (Cert.KernelIdeal.Gen.hostOps0 (F := F)) VK (Proc.devRef .tc Cert.KernelIdeal.main_call0_v10)
      = after (RefRun.opsA (F := F)) VR (Proc.devRef .tc Cert.ReferenceIdeal.main_v10) := by
  rw [KSplit.after_hostOps0, RSplit.after_opsA]
  exact placing_kept _ _ _ (hashing_expert VK VR tok hK1 hR1) rfl

end Routing

/-! ## The combination -/

section Combination

variable (WK : Valuation Cert.KernelIdeal.τ Cert.KernelIdeal.sig (Elt F)) (WR : Valuation Cert.ReferenceIdeal.τ Cert.ReferenceIdeal.sig (Elt F))
  (eo : (⟨Cert.ReferenceIdeal.S64x512x512, .f32⟩ : BufTy).Contents (Elt F)) (e p : (⟨Cert.ReferenceIdeal.S32768, .i32⟩ : BufTy).Contents (Elt F))
  (kept : (⟨Cert.ReferenceIdeal.S32768, .i1⟩ : BufTy).Contents (Elt F))
  (hKo : WK (Proc.devRef .tc Cert.KernelIdeal.main_call0_v28) = eo) (hRo : WR (Proc.devRef .tc Cert.ReferenceIdeal.main_v39) = eo)
  (hKe : WK (Proc.devRef .tc Cert.KernelIdeal.main_call0_v2) = e) (hRe : WR (Proc.devRef .tc Cert.ReferenceIdeal.main_v2) = e)
  (hKp : WK (Proc.devRef .tc Cert.KernelIdeal.main_call0_v8) = p) (hRp : WR (Proc.devRef .tc Cert.ReferenceIdeal.main_v8) = p)
  (hKk : WK (Proc.devRef .tc Cert.KernelIdeal.main_call0_v10) = kept) (hRk : WR (Proc.devRef .tc Cert.ReferenceIdeal.main_v10) = kept)

include hKo hRo hKe hRe hKp hRp hKk hRk

attribute [local irreducible] Host.reduceWindow Host.reduce Host.scatter Host.gather Host.remsi in
set_option maxHeartbeats 4000000 in
/-- The result: from equal experts' outputs, expert indices, slots and masks the combination leaves equal results. -/
theorem combined_eq :
    after (Cert.KernelIdeal.Gen.hostOps1 (F := F)) WK (Proc.devRef .tc Cert.KernelIdeal.main_v0)
      = after (RefRun.opsC (F := F)) WR (Proc.devRef .tc Cert.ReferenceIdeal.main_v60) := by
  read_stretch
  simp only [hKo, hRo, hKe, hRe, hKp, hRp, hKk, hRk, ofBuf_toBuf, toBuf_ofBuf]
  try simp only [TRef.toBuf, TRef.ofBuf]
  repeat rw [cast_eq]
  all_goals rfl

end Combination

/-! ## The reference's experts' stage -/

section Middle

variable (U : Valuation Cert.ReferenceIdeal.τ Cert.ReferenceIdeal.sig (Elt Ideal))

attribute [local irreducible] Host.reduceWindow Host.reduce Host.scatter Host.gather Host.remsi in
/-- The reference's experts' stage leaves `refFFN` of the dispatched array and the three weight stacks. -/
theorem experts_eq :
    after (RefRun.opsB (F := Ideal)) U (Proc.devRef .tc Cert.ReferenceIdeal.main_v39)
      = refFFN (U (Proc.devRef .tc Cert.ReferenceIdeal.main_v27)) (U (Proc.devRef .tc Cert.ReferenceIdeal.main_arg2)) (U (Proc.devRef .tc Cert.ReferenceIdeal.main_arg3)) (U (Proc.devRef .tc Cert.ReferenceIdeal.main_arg4)) := by
  read_stretch
  simp only [ofBuf_toBuf, toBuf_ofBuf]
  try simp only [TRef.toBuf, TRef.ofBuf]
  repeat rw [cast_eq]
  all_goals rfl

/-- The experts' stage writes neither the expert index, nor the slot, nor the mask. -/
theorem experts_keep_expert : after (RefRun.opsB (F := Ideal)) U (Proc.devRef .tc Cert.ReferenceIdeal.main_v2) = U (Proc.devRef .tc Cert.ReferenceIdeal.main_v2) := by
  read_stretch
theorem experts_keep_slot : after (RefRun.opsB (F := Ideal)) U (Proc.devRef .tc Cert.ReferenceIdeal.main_v8) = U (Proc.devRef .tc Cert.ReferenceIdeal.main_v8) := by
  read_stretch
theorem experts_keep_kept : after (RefRun.opsB (F := Ideal)) U (Proc.devRef .tc Cert.ReferenceIdeal.main_v10) = U (Proc.devRef .tc Cert.ReferenceIdeal.main_v10) := by
  read_stretch

set_option maxHeartbeats 4000000 in
/-- The routing writes none of the weight stacks. -/
theorem routing_keeps_wk : after (RefRun.opsA (F := Ideal)) U (Proc.devRef .tc Cert.ReferenceIdeal.main_arg2) = U (Proc.devRef .tc Cert.ReferenceIdeal.main_arg2) := by
  read_stretch
set_option maxHeartbeats 4000000 in
theorem routing_keeps_wr : after (RefRun.opsA (F := Ideal)) U (Proc.devRef .tc Cert.ReferenceIdeal.main_arg3) = U (Proc.devRef .tc Cert.ReferenceIdeal.main_arg3) := by
  read_stretch
set_option maxHeartbeats 4000000 in
theorem routing_keeps_wv : after (RefRun.opsA (F := Ideal)) U (Proc.devRef .tc Cert.ReferenceIdeal.main_arg4) = U (Proc.devRef .tc Cert.ReferenceIdeal.main_arg4) := by
  read_stretch

end Middle

end Cert.Moe.Folds

end
-- ==== Proof.Spec.lean ====
/-
  One expert's feed-forward network applied to one token's feature row, on the extended reals.

  A token row `d` (512 features) meets an expert's three weight matrices. The hidden layer has 1792 units: unit `f` is
  the rectified inner product of `d` with row `f` of the key matrix, `max (∑ₖ d k · wk f k) 0`, and it enters the next
  layer squared. Output feature `g` is the receptance gate — the logistic function of the inner product of `d` with row
  `g` of the receptance matrix — times the inner product of the squared hidden layer with row `g` of the value matrix.
  Every sum is a finite sum of extended reals in the index's order; nothing here needs the entries to be finite.
-/
import Idealize.ShloMosaic.PureOps.Ideal
import Idealize.ShloMosaic.Lib.ValueIdx

noncomputable section

open scoped BigOperators

namespace Cert.Moe

open Idealize.ShloMosaic

/-- Hidden unit `f` of the expert on the token row `d`: the rectified inner product with row `f` of the key matrix. -/
def hidden (d : Fin 512 → EReal) (wk : Fin 1792 → Fin 512 → EReal) (f : Fin 1792) : EReal :=
  max (∑ k : Fin 512, d k * wk f k) 0

/-- Output feature `g` of the expert on the token row `d`: the logistic gate of `d` against row `g` of the receptance
    matrix, times the squared hidden layer against row `g` of the value matrix. -/
def ffn (d : Fin 512 → EReal) (wk : Fin 1792 → Fin 512 → EReal) (wr : Fin 512 → Fin 512 → EReal)
    (wv : Fin 512 → Fin 1792 → EReal) (g : Fin 512) : EReal :=
  Ideal.logistic (∑ k : Fin 512, d k * wr g k) * ∑ f : Fin 1792, (hidden d wk f * hidden d wk f) * wv g f

end Cert.Moe

end
-- ==== Proof.SpecArray.lean ====
/-
  The experts' stage on a whole dispatched array.

  The dispatched array holds, for each of the 64 experts, 512 slots of 512 features. The experts' stage applies expert
  `e`'s network (its rows of the key, receptance and value stacks) to each of its slots: entry `(e, c, g)` of the result is
  output feature `g` of expert `e` on the token row in slot `c`.
-/
import proofs.«150590_j69355131896109_2_alg».proof.Proof.Spec

noncomputable section

namespace Cert.Moe

open Idealize.ShloMosaic Idealize.ShloMosaic.ValueIdx

/-- Entry `(e, c, g)` of the experts' outputs. -/
def expertAt (disp : (⟨3, ![64, 512, 512]⟩ : Shape).Idx → EReal) (wk : (⟨3, ![64, 1792, 512]⟩ : Shape).Idx → EReal)
    (wr : (⟨3, ![64, 512, 512]⟩ : Shape).Idx → EReal) (wv : (⟨3, ![64, 512, 1792]⟩ : Shape).Idx → EReal)
    (e : Fin 64) (c g : Fin 512) : EReal :=
  ffn (fun k => disp (ix3 e c k)) (fun f k => wk (ix3 e f k)) (fun g' k => wr (ix3 e g' k)) (fun g' f => wv (ix3 e g' f)) g

/-- The experts' outputs as one array. -/
def expertsOut (disp : (⟨3, ![64, 512, 512]⟩ : Shape).Idx → EReal) (wk : (⟨3, ![64, 1792, 512]⟩ : Shape).Idx → EReal)
    (wr : (⟨3, ![64, 512, 512]⟩ : Shape).Idx → EReal) (wv : (⟨3, ![64, 512, 1792]⟩ : Shape).Idx → EReal) :
    (⟨3, ![64, 512, 512]⟩ : Shape).Idx → EReal :=
  fun i => expertAt disp wk wr wv (i 0) (i 1) (i 2)

theorem expertsOut_ix3 (disp : (⟨3, ![64, 512, 512]⟩ : Shape).Idx → EReal) (wk : (⟨3, ![64, 1792, 512]⟩ : Shape).Idx → EReal)
    (wr : (⟨3, ![64, 512, 512]⟩ : Shape).Idx → EReal) (wv : (⟨3, ![64, 512, 1792]⟩ : Shape).Idx → EReal)
    (e : Fin 64) (c g : Fin 512) : expertsOut disp wk wr wv (ix3 e c g) = expertAt disp wk wr wv e c g := rfl

end Cert.Moe

end
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.KernelFfn.lean ====
/-
  The expert feed-forward kernel's stored block, read at one token and one output feature.

  The kernel body receives one expert's token block `x0` (512 tokens by 512 features) and its three weight
  matrices — keys `x1` (1792 by 512), receptance `x2` (512 by 512) and values `x3` (512 by 1792) — each under a
  leading unit axis. It drops the unit axes, narrows every operand before each product (a narrowing is the identity
  over the extended reals), and forms three products that all contract the SECOND axis of both operands, so a
  weight matrix is met row by row:
    * the key layer, `tokens · keysᵀ`, rectified against zero and squared entry by entry;
    * the value layer, `(squared hidden layer) · valuesᵀ`;
    * the gate, the logistic function of `tokens · receptanceᵀ`;
  and stores gate times value layer under a fresh unit axis. `pay_apply` reads that stored block at token `c`
  and feature `g` and finds the specification's `Cert.Moe.ffn` of token row `c` against the three matrices.
-/
import proofs.«150590_j69355131896109_2_alg».proof.Proof.Gen.KernelIdeal.Skeleton
import proofs.«150590_j69355131896109_2_alg».proof.Proof.Spec
import proofs.«150590_j69355131896109_2_alg».proof.Proof.LibTransDot
import Idealize.ShloMosaic.Lib.ValueLayout
import Idealize.ShloMosaic.PureOps.Ideal.Laws

noncomputable section

open scoped BigOperators

namespace Cert.Moe.KernelFfn

open Idealize.ShloMosaic Idealize.ShloMosaic.ValueIdx Idealize.ShloMosaic.TransDot
open Cert.KernelIdeal Cert.KernelIdeal.Gen

/-! ## The three contractions meet the right operand row by row -/

/-- Key layer, `[512, 512] × [1792, 512] → [512, 1792]`: output `(c, f)` pairs token row `c` with key row `f`. -/
theorem keyDot : TransDot dot_S512x512_S1792x512_S512x1792_1_1_0_0_n_n :=
  ⟨rfl, rfl, fun _ _ => rfl, fun _ _ => rfl, fun _ _ => rfl, fun _ _ => rfl⟩

/-- Value layer, `[512, 1792] × [512, 1792] → [512, 512]`: output `(c, g)` pairs hidden row `c` with value row `g`. -/
theorem valueDot : TransDot dot_S512x1792_S512x1792_S512x512_1_1_0_0_n_n :=
  ⟨rfl, rfl, fun _ _ => rfl, fun _ _ => rfl, fun _ _ => rfl, fun _ _ => rfl⟩

/-- Gate, `[512, 512] × [512, 512] → [512, 512]`: output `(c, g)` pairs token row `c` with receptance row `g`. -/
theorem gateDot : TransDot dot_S512x512_S512x512_S512x512_1_1_0_0_n_n :=
  ⟨rfl, rfl, fun _ _ => rfl, fun _ _ => rfl, fun _ _ => rfl, fun _ _ => rfl⟩

/-! ## An operand of a product: unit axis dropped, then narrowed -/

/-- A `[1, a, b]` block cast to `[a, b]` and narrowed reads, at `(i, j)`, the block at `(0, i, j)`: the cast only
    re-indexes and the narrowing is the identity over the extended reals. -/
theorem narrow_cast_apply {a b : ℕ} (x : Vec Ideal ⟨3, ![1, a, b]⟩ .f32)
    (h : (⟨3, ![1, a, b]⟩ : Shape).ShapeCasts ⟨2, ![a, b]⟩) (hb : FTy.bits .bf16 < FTy.bits .f32) (i : Fin a) (j : Fin b) :
    truncf (F := Ideal) .bf16 (shapeCast ⟨2, ![a, b]⟩ x h) hb (ix2 i j) = x (ix3 (0 : Fin 1) i j) :=
  shapeCast_1ab_ab_apply x h i j

/-! ## The kernel's layers, named -/

/-- The token block as a `[512, 512]` matrix, narrowed: row `c` is token `c`. -/
def tokens (x0 : Vec Ideal S1x512x512 .f32) : FVec Ideal S512x512 .bf16 :=
  truncf .bf16 (shapeCast S512x512 x0 shapeCasts_S1x512x512_S512x512) bitsLt_bf16_f32

/-- The key matrix, `[1792, 512]`, narrowed: row `f` belongs to hidden unit `f`. -/
def keys (x1 : Vec Ideal S1x1792x512 .f32) : FVec Ideal S1792x512 .bf16 :=
  truncf .bf16 (shapeCast S1792x512 x1 shapeCasts_S1x1792x512_S1792x512) bitsLt_bf16_f32

/-- The receptance matrix, `[512, 512]`, narrowed: row `g` belongs to output feature `g`. -/
def recept (x2 : Vec Ideal S1x512x512 .f32) : FVec Ideal S512x512 .bf16 :=
  truncf .bf16 (shapeCast S512x512 x2 shapeCasts_S1x512x512_S512x512) bitsLt_bf16_f32

/-- The value matrix, `[512, 1792]`, narrowed: row `g` belongs to output feature `g`. -/
def values (x3 : Vec Ideal S1x512x1792 .f32) : FVec Ideal S512x1792 .bf16 :=
  truncf .bf16 (shapeCast S512x1792 x3 shapeCasts_S1x512x1792_S512x1792) bitsLt_bf16_f32

/-- The key layer before rectification: tokens against the key rows, into a zero accumulator. -/
def keyLayer (x0 : Vec Ideal S1x512x512 .f32) (x1 : Vec Ideal S1x1792x512 .f32) : FVec Ideal S512x1792 .f32 :=
  matmul dot_S512x512_S1792x512_S512x1792_1_1_0_0_n_n none (tokens x0) (keys x1) (constant S512x1792 .f32 0x00000000#32)

/-- The hidden layer as the value product receives it: the key layer rectified against a zero scalar spread over the
    block, multiplied by itself, narrowed. -/
def hiddenSq (x0 : Vec Ideal S1x512x512 .f32) (x1 : Vec Ideal S1x1792x512 .f32) : FVec Ideal S512x1792 .bf16 :=
  truncf .bf16
    (mulf (maximumf (keyLayer x0 x1) (broadcast S512x1792 (Scalar.ofBits .f32 0x00000000#32)))
      (maximumf (keyLayer x0 x1) (broadcast S512x1792 (Scalar.ofBits .f32 0x00000000#32))))
    bitsLt_bf16_f32

/-- The value layer: the squared hidden layer against the value rows, into a zero accumulator. -/
def valueLayer (x0 : Vec Ideal S1x512x512 .f32) (x1 : Vec Ideal S1x1792x512 .f32) (x3 : Vec Ideal S1x512x1792 .f32) :
    FVec Ideal S512x512 .f32 :=
  matmul dot_S512x1792_S512x1792_S512x512_1_1_0_0_n_n none (hiddenSq x0 x1) (values x3) (constant S512x512 .f32 0x00000000#32)

/-- The gate before the logistic function: tokens against the receptance rows, into a zero accumulator. -/
def gateLayer (x0 : Vec Ideal S1x512x512 .f32) (x2 : Vec Ideal S1x512x512 .f32) : FVec Ideal S512x512 .f32 :=
  matmul dot_S512x512_S512x512_S512x512_1_1_0_0_n_n none (tokens x0) (recept x2) (constant S512x512 .f32 0x00000000#32)

/-- The stored block is the logistic gate times the value layer, under a fresh leading unit axis: the generated
    payload with its intermediate values named. -/
theorem pay_eq (x0 : Vec Ideal S1x512x512 .f32) (x1 : Vec Ideal S1x1792x512 .f32) (x2 : Vec Ideal S1x512x512 .f32)
    (x3 : Vec Ideal S1x512x1792 .f32) :
    k0_pay1 (F := Ideal) x0 x1 x2 x3
      = shapeCast S1x512x512 (mulf (logistic (gateLayer x0 x2)) (valueLayer x0 x1 x3)) shapeCasts_S512x512_S1x512x512 :=
  rfl

/-! ## The layers at an index -/

/-- The key layer at token `c` and hidden unit `f`: the inner product of token row `c` with key row `f`. -/
theorem keyLayer_apply (x0 : Vec Ideal S1x512x512 .f32) (x1 : Vec Ideal S1x1792x512 .f32) (c : Fin 512) (f : Fin 1792) :
    keyLayer x0 x1 (ix2 c f) = ∑ k : Fin 512, x0 (ix3 (0 : Fin 1) c k) * x1 (ix3 (0 : Fin 1) f k) := by
  refine (matmul_zero_trans_apply _ keyDot none _ _ c f).trans ?_
  refine Finset.sum_congr rfl fun k _ => ?_
  exact congrArg₂ (· * ·) (narrow_cast_apply x0 _ _ c k) (narrow_cast_apply x1 _ _ f k)

/-- The gate's argument at token `c` and feature `g`: the inner product of token row `c` with receptance row `g`. -/
theorem gateLayer_apply (x0 : Vec Ideal S1x512x512 .f32) (x2 : Vec Ideal S1x512x512 .f32) (c g : Fin 512) :
    gateLayer x0 x2 (ix2 c g) = ∑ k : Fin 512, x0 (ix3 (0 : Fin 1) c k) * x2 (ix3 (0 : Fin 1) g k) := by
  refine (matmul_zero_trans_apply _ gateDot none _ _ c g).trans ?_
  refine Finset.sum_congr rfl fun k _ => ?_
  exact congrArg₂ (· * ·) (narrow_cast_apply x0 _ _ c k) (narrow_cast_apply x2 _ _ g k)

/-- The squared hidden layer at token `c` and unit `f`: the specification's hidden unit `f` on token row `c`, times
    itself. The zero scalar's bit pattern is the real number zero, the entrywise maximum and product are the extended
    reals', and the narrowing is the identity. -/
theorem hiddenSq_apply (x0 : Vec Ideal S1x512x512 .f32) (x1 : Vec Ideal S1x1792x512 .f32) (c : Fin 512) (f : Fin 1792) :
    hiddenSq x0 x1 (ix2 c f)
      = hidden (fun k => x0 (ix3 (0 : Fin 1) c k)) (fun f' k => x1 (ix3 (0 : Fin 1) f' k)) f
        * hidden (fun k => x0 (ix3 (0 : Fin 1) c k)) (fun f' k => x1 (ix3 (0 : Fin 1) f' k)) f := by
  have hz : Scalar.ofBits (F := Ideal) .f32 0x00000000#32 = (0 : EReal) := Ideal.ofBits_zero_f32
  show max (keyLayer x0 x1 (ix2 c f)) (Scalar.ofBits (F := Ideal) .f32 0x00000000#32)
      * max (keyLayer x0 x1 (ix2 c f)) (Scalar.ofBits (F := Ideal) .f32 0x00000000#32) = _
  rw [keyLayer_apply, hz]
  rfl

/-- The value layer at token `c` and feature `g`: the squared hidden layer of token row `c` against value row `g`. -/
theorem valueLayer_apply (x0 : Vec Ideal S1x512x512 .f32) (x1 : Vec Ideal S1x1792x512 .f32) (x3 : Vec Ideal S1x512x1792 .f32)
    (c g : Fin 512) :
    valueLayer x0 x1 x3 (ix2 c g)
      = ∑ f : Fin 1792,
          (hidden (fun k => x0 (ix3 (0 : Fin 1) c k)) (fun f' k => x1 (ix3 (0 : Fin 1) f' k)) f
            * hidden (fun k => x0 (ix3 (0 : Fin 1) c k)) (fun f' k => x1 (ix3 (0 : Fin 1) f' k)) f)
          * x3 (ix3 (0 : Fin 1) g f) := by
  refine (matmul_zero_trans_apply _ valueDot none _ _ c g).trans ?_
  refine Finset.sum_congr rfl fun f _ => ?_
  exact congrArg₂ (· * ·) (hiddenSq_apply x0 x1 c f) (narrow_cast_apply x3 _ _ g f)

/-! ## The stored block at an index -/

/-- The stored block at token `c` and output feature `g` is the expert's feed-forward network on token row `c`:
    the logistic gate of the row against receptance row `g`, times the squared rectified hidden layer against value
    row `g`. -/
theorem pay_apply (x0 : Vec Ideal S1x512x512 .f32) (x1 : Vec Ideal S1x1792x512 .f32) (x2 : Vec Ideal S1x512x512 .f32)
    (x3 : Vec Ideal S1x512x1792 .f32) (c g : Fin 512) :
    k0_pay1 (F := Ideal) x0 x1 x2 x3 (ix3 (0 : Fin 1) c g)
      = Cert.Moe.ffn (fun k => x0 (ix3 (0 : Fin 1) c k)) (fun f k => x1 (ix3 (0 : Fin 1) f k))
          (fun g' k => x2 (ix3 (0 : Fin 1) g' k)) (fun g' f => x3 (ix3 (0 : Fin 1) g' f)) g := by
  rw [pay_eq]
  refine (shapeCast_ab_1ab_apply _ _ (0 : Fin 1) c g).trans ?_
  show Ideal.logistic (gateLayer x0 x2 (ix2 c g)) * valueLayer x0 x1 x3 (ix2 c g) = _
  rw [gateLayer_apply, valueLayer_apply]
  rfl

end Cert.Moe.KernelFfn

end
-- ==== Proof.KernelArray.lean ====
/-
  What the kernel's region leaves in the experts' output array.

  The region runs one grid point per expert. At point `t` the body is handed expert `t`'s block of every operand — its 512
  dispatched token rows, its key, receptance and value matrices — and writes back the block of outputs it computes from them,
  which (by the body's value, `pay_apply`) is the expert's network applied to each of its token rows. Block `t` of each
  operand is the slice of the whole array with first coordinate `t`, so what point `t` writes back is block `t` of ONE
  whole-array function, `expertsOut` of the arrays as the region finds them; the 64 blocks tile the output array, so the
  array ends holding that function.
-/
import proofs.«150590_j69355131896109_2_alg».proof.Proof.Gen.KernelIdeal.Frame
import proofs.«150590_j69355131896109_2_alg».proof.Proof.SpecArray
import proofs.«150590_j69355131896109_2_alg».proof.Proof.KernelFfn
import Idealize.ShloMosaic.Lib.Pipeline.Value
import Idealize.ShloMosaic.Lib.ValueIdx

set_option maxRecDepth 16384

noncomputable section

namespace Cert.Moe.KernelArray

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-- The printed index maps, decided once over the grid: at point `t` every window's block index is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The expert a grid point works on. -/
def expertOf (t : Fin cfg0.N) : Fin 64 := ⟨t.val, Nat.lt_of_lt_of_eq t.isLt N_0⟩

/-- Entry `(0, a, b)` of point `t`'s block of the dispatched array is entry `(t, a, b)` of the array. -/
theorem emb0 (t : Fin cfg0.N) (a b : Fin 512) : ((cfg0.win 0).blk t).view.emb (ix3 (0 : Fin 1) a b) = ix3 (expertOf t) a b := by
  obtain ⟨e0, e1, e2, -⟩ := idx_facts t
  funext d; apply Fin.ext
  match d with
  | ⟨0, _⟩ => show win0_0.index t (0 : Fin 3) * 1 + 1 * 0 = t.val; omega
  | ⟨1, _⟩ => show win0_0.index t (1 : Fin 3) * 512 + 1 * a.val = a.val; omega
  | ⟨2, _⟩ => show win0_0.index t (2 : Fin 3) * 512 + 1 * b.val = b.val; omega

/-- The same for the key stack's block. -/
theorem emb1 (t : Fin cfg0.N) (a : Fin 1792) (b : Fin 512) : ((cfg0.win 1).blk t).view.emb (ix3 (0 : Fin 1) a b) = ix3 (expertOf t) a b := by
  obtain ⟨-, -, -, e0, e1, e2, -⟩ := idx_facts t
  funext d; apply Fin.ext
  match d with
  | ⟨0, _⟩ => show win0_1.index t (0 : Fin 3) * 1 + 1 * 0 = t.val; omega
  | ⟨1, _⟩ => show win0_1.index t (1 : Fin 3) * 1792 + 1 * a.val = a.val; omega
  | ⟨2, _⟩ => show win0_1.index t (2 : Fin 3) * 512 + 1 * b.val = b.val; omega

/-- The same for the receptance stack's block. -/
theorem emb2 (t : Fin cfg0.N) (a b : Fin 512) : ((cfg0.win 2).blk t).view.emb (ix3 (0 : Fin 1) a b) = ix3 (expertOf t) a b := by
  obtain ⟨-, -, -, -, -, -, e0, e1, e2, -⟩ := idx_facts t
  funext d; apply Fin.ext
  match d with
  | ⟨0, _⟩ => show win0_2.index t (0 : Fin 3) * 1 + 1 * 0 = t.val; omega
  | ⟨1, _⟩ => show win0_2.index t (1 : Fin 3) * 512 + 1 * a.val = a.val; omega
  | ⟨2, _⟩ => show win0_2.index t (2 : Fin 3) * 512 + 1 * b.val = b.val; omega

/-- The same for the value stack's block. -/
theorem emb3 (t : Fin cfg0.N) (a : Fin 512) (b : Fin 1792) : ((cfg0.win 3).blk t).view.emb (ix3 (0 : Fin 1) a b) = ix3 (expertOf t) a b := by
  obtain ⟨-, -, -, -, -, -, -, -, -, e0, e1, e2, -⟩ := idx_facts t
  funext d; apply Fin.ext
  match d with
  | ⟨0, _⟩ => show win0_3.index t (0 : Fin 3) * 1 + 1 * 0 = t.val; omega
  | ⟨1, _⟩ => show win0_3.index t (1 : Fin 3) * 512 + 1 * a.val = a.val; omega
  | ⟨2, _⟩ => show win0_3.index t (2 : Fin 3) * 1792 + 1 * b.val = b.val; omega

/-- The same for the output array's block. -/
theorem emb4 (t : Fin cfg0.N) (a b : Fin 512) : ((cfg0.win 4).blk t).view.emb (ix3 (0 : Fin 1) a b) = ix3 (expertOf t) a b := by
  obtain ⟨-, -, -, -, -, -, -, -, -, -, -, -, e0, e1, e2⟩ := idx_facts t
  funext d; apply Fin.ext
  match d with
  | ⟨0, _⟩ => show win0_4.index t (0 : Fin 3) * 1 + 1 * 0 = t.val; omega
  | ⟨1, _⟩ => show win0_4.index t (1 : Fin 3) * 512 + 1 * a.val = a.val; omega
  | ⟨2, _⟩ => show win0_4.index t (2 : Fin 3) * 512 + 1 * b.val = b.val; omega

/-- Each operand's block at point `t` read at `(0, a, b)` is the operand's array, as the region finds it, at `(t, a, b)`:
    a block is its array read through the block's rectangle. -/
theorem read0 (c : Dev nD) (t : Fin cfg0.N) (a b : Fin 512) :
    iblk m c 0 t (ix3 (0 : Fin 1) a b) = V m c (Pipeline.arrRef spec0 0) (ix3 (expertOf t) a b) := by
  unfold iblk
  rw [View.read_apply, cast_eq, emb0]
theorem read1 (c : Dev nD) (t : Fin cfg0.N) (a : Fin 1792) (b : Fin 512) :
    iblk m c 1 t (ix3 (0 : Fin 1) a b) = V m c (Pipeline.arrRef spec0 1) (ix3 (expertOf t) a b) := by
  unfold iblk
  rw [View.read_apply, cast_eq, emb1]
theorem read2 (c : Dev nD) (t : Fin cfg0.N) (a b : Fin 512) :
    iblk m c 2 t (ix3 (0 : Fin 1) a b) = V m c (Pipeline.arrRef spec0 2) (ix3 (expertOf t) a b) := by
  unfold iblk
  rw [View.read_apply, cast_eq, emb2]
theorem read3 (c : Dev nD) (t : Fin cfg0.N) (a : Fin 512) (b : Fin 1792) :
    iblk m c 3 t (ix3 (0 : Fin 1) a b) = V m c (Pipeline.arrRef spec0 3) (ix3 (expertOf t) a b) := by
  unfold iblk
  rw [View.read_apply, cast_eq, emb3]

/-- WHAT POINT `t` WRITES BACK is block `t` of the experts' outputs of the arrays as the region finds them. -/
theorem flushed_eq (c : Dev nD) (t : Fin cfg0.N) :
    (dats m 0 c).flushed 4 t = ((cfg0.win 4).blk t).view.read (Elt Ideal)
      (expertsOut (V m c (Pipeline.arrRef spec0 0)) (V m c (Pipeline.arrRef spec0 1)) (V m c (Pipeline.arrRef spec0 2)) (V m c (Pipeline.arrRef spec0 3))) := by
  show (cfg0.win 4).cut (grid0.coords t) ((dats m 0 c).after 4 t) = _
  rw [after0_4]
  unfold out0_4
  rw [View.canon_unit_zero hz]
  simp only [View.ld_unit_zero (S := S1x512x512) hz, View.ld_unit_zero (S := S1x1792x512) hz, View.ld_unit_zero (S := S1x512x1792) hz]
  funext j
  rw [View.read_apply, cast_eq]
  obtain ⟨a, b, rfl⟩ : ∃ (a b : Fin 512), j = ix3 (0 : Fin 1) a b :=
    ⟨j 1, j 2, funext fun d => by
      match d with
      | ⟨0, _⟩ => exact Fin.ext (by have h : (j 0).val < 1 := (j 0).isLt; show (j 0).val = 0; omega)
      | ⟨1, _⟩ => rfl
      | ⟨2, _⟩ => rfl⟩
  refine Eq.trans ?_ (congrArg (expertsOut (V m c (Pipeline.arrRef spec0 0)) (V m c (Pipeline.arrRef spec0 1)) (V m c (Pipeline.arrRef spec0 2)) (V m c (Pipeline.arrRef spec0 3))) (emb4 t a b)).symm
  rw [expertsOut_ix3]
  refine Eq.trans (KernelFfn.pay_apply (iblk m c 0 t) (iblk m c 1 t) (iblk m c 2 t) (iblk m c 3 t) a b) ?_
  unfold expertAt
  simp only [read0, read1, read2, read3]

/-- An index of the output array is in point `t`'s block iff each coordinate is in the block's range on its axis. -/
theorem mem_blk (t : Fin cfg0.N) (i : S64x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_call0_v28).slice (win0_4.rect t)).set ↔ _
  rw [View.set_slice_whole, Rect.mem_set_unit]
  exact Iff.rfl

/-- Every entry `(e, c, g)` of the output array is in expert `e`'s block, which is written back. -/
theorem cover (i : S64x512x512.Idx) : ∃ t : Fin cfg0.N, (cfg0.win 4).flush t = true ∧ i ∈ ((cfg0.win 4).blk t).view.set := by
  have h0 : (i 0).val < 64 := (i 0).isLt
  have h1 : (i 1).val < 512 := (i 1).isLt
  have h2 : (i 2).val < 512 := (i 2).isLt
  have hN : (i 0).val < cfg0.N := by rw [show cfg0.N = 64 from N_0]; exact h0
  obtain ⟨-, -, -, -, -, -, -, -, -, -, -, -, e0, e1, e2⟩ := idx_facts ⟨(i 0).val, hN⟩
  refine ⟨⟨(i 0).val, hN⟩, flush0_4 _, ?_⟩
  rw [mem_blk]
  intro a
  match a with
  | ⟨0, _⟩ => show win0_4.index ⟨(i 0).val, hN⟩ (0 : Fin 3) * 1 ≤ (i 0).val ∧ (i 0).val < win0_4.index ⟨(i 0).val, hN⟩ (0 : Fin 3) * 1 + 1; simp only at e0; omega
  | ⟨1, _⟩ => show win0_4.index ⟨(i 0).val, hN⟩ (1 : Fin 3) * 512 ≤ (i 1).val ∧ (i 1).val < win0_4.index ⟨(i 0).val, hN⟩ (1 : Fin 3) * 512 + 512; omega
  | ⟨2, _⟩ => show win0_4.index ⟨(i 0).val, hN⟩ (2 : Fin 3) * 512 ≤ (i 2).val ∧ (i 2).val < win0_4.index ⟨(i 0).val, hN⟩ (2 : Fin 3) * 512 + 512; omega

/-- THE OUTPUT ARRAY after the region: the experts' outputs of the arrays as the region finds them. -/
theorem final (c : Dev nD) : (dats m 0 c).arrAt 4 cfg0.N
    = expertsOut (V m c (Pipeline.arrRef spec0 0)) (V m c (Pipeline.arrRef spec0 1)) (V m c (Pipeline.arrRef spec0 2)) (V m c (Pipeline.arrRef spec0 3)) :=
  (dats m 0 c).arrAt_eq_of_cover 4 _ (fun t _ => flushed_eq m c t) cover

end Cert.Moe.KernelArray

end
-- ==== Proof.LibBatchTransDot.lean ====
/-
  A batched matrix product against a transposed right operand.

  For a three-axis contraction `[E, M, K] × [E, N, K] → [E, M, N]` whose dimension numbers pair the first axis of both
  operands as the batch axis, contract the last axis of both and keep the two middle axes in order (`BatchTransDot`),
  the sum over the contraction index at output `(e, p, n)` is `∑ k : Fin K, x (e, p, k) · w (e, n, k)`
  (`sum_contr_batch_trans_eq`): within each batch entry `e` it is the product of the `M × K` matrix `x e` with the
  transpose of the `N × K` matrix `w e`. The host's `dot_general` at the extended reals has no accumulator and no
  rounding, so read at `(e, p, n)` it is that sum (`dotGeneral_batch_trans_apply`, `hostDotGeneral_batch_trans_apply`).
  Only the commutative monoid of the extended reals' addition is used: the sum is re-indexed along the bijection between
  the one-axis contraction index set and `Fin K`.
-/
import Idealize.ShloMosaic.Lib.ValueIdx
import Idealize.ShloMosaic.PureOps.Ideal.Laws

noncomputable section

open scoped BigOperators

namespace Cert.Lib.BatchTransDot

open Idealize.ShloMosaic Idealize.ShloMosaic.ValueIdx

/-- The dimension numbers of a batched product with a transposed right operand: one contracted axis of extent `K`; the
    left operand's index at output `j` and contraction index `q` is `(j 0, j 1, q)`, the right operand's `(j 0, j 2, q)`. -/
structure BatchTransDot {E M K N : Nat}
    (d : DotDims (⟨3, ![E, M, K]⟩ : Shape) (⟨3, ![E, N, K]⟩ : Shape) (⟨3, ![E, M, N]⟩ : Shape)) : Prop where
  hr : d.contr.rank = 1
  hs : d.contr.size ⟨0, by omega⟩ = K
  l0 : ∀ (j : (⟨3, ![E, M, N]⟩ : Shape).Idx) (q : d.contr.Idx), (d.lhsIdx j q 0).val = (j 0).val
  l1 : ∀ (j : (⟨3, ![E, M, N]⟩ : Shape).Idx) (q : d.contr.Idx), (d.lhsIdx j q 1).val = (j 1).val
  l2 : ∀ (j : (⟨3, ![E, M, N]⟩ : Shape).Idx) (q : d.contr.Idx), (d.lhsIdx j q 2).val = (q ⟨0, by omega⟩).val
  r0 : ∀ (j : (⟨3, ![E, M, N]⟩ : Shape).Idx) (q : d.contr.Idx), (d.rhsIdx j q 0).val = (j 0).val
  r1 : ∀ (j : (⟨3, ![E, M, N]⟩ : Shape).Idx) (q : d.contr.Idx), (d.rhsIdx j q 1).val = (j 2).val
  r2 : ∀ (j : (⟨3, ![E, M, N]⟩ : Shape).Idx) (q : d.contr.Idx), (d.rhsIdx j q 2).val = (q ⟨0, by omega⟩).val

variable {E M K N : Nat}

/-- The contraction's sum at output `j` is the sum over `k : Fin K` of `x (j 0, j 1, k) · w (j 0, j 2, k)`: the
    contraction index set has one axis of extent `K`, so it is in bijection with `Fin K`, and along that bijection the
    two operand indices are the stated triples, coordinate by coordinate. -/
theorem sum_contr_batch_trans_eq
    (d : DotDims (⟨3, ![E, M, K]⟩ : Shape) (⟨3, ![E, N, K]⟩ : Shape) (⟨3, ![E, M, N]⟩ : Shape)) (h : BatchTransDot d)
    (x : (⟨3, ![E, M, K]⟩ : Shape).Idx → EReal) (w : (⟨3, ![E, N, K]⟩ : Shape).Idx → EReal)
    (j : (⟨3, ![E, M, N]⟩ : Shape).Idx) :
    ∑ q : d.contr.Idx, x (d.lhsIdx j q) * w (d.rhsIdx j q)
      = ∑ k : Fin K, x (ix3 (j 0) (j 1) k) * w (ix3 (j 0) (j 2) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix3 (j 0) (j 1) k := funext fun a => Fin.ext (by
    match a with
    | ⟨0, _⟩ => exact h.l0 _ _
    | ⟨1, _⟩ => exact h.l1 _ _
    | ⟨2, _⟩ => exact (h.l2 _ _).trans hk)
  have er : d.rhsIdx j ((contrEquiv1 d K h.hr h.hs).symm k) = ix3 (j 0) (j 2) k := funext fun a => Fin.ext (by
    match a with
    | ⟨0, _⟩ => exact h.r0 _ _
    | ⟨1, _⟩ => exact h.r1 _ _
    | ⟨2, _⟩ => exact (h.r2 _ _).trans hk)
  exact congrArg₂ (· * ·) (congrArg x el) (congrArg w er)

/-- The host's batched product at the extended reals, under any schedule key, read at `(e, p, n)`. -/
theorem dotGeneral_batch_trans_apply {φ₁ φ₂ : FTy}
    (d : DotDims (⟨3, ![E, M, K]⟩ : Shape) (⟨3, ![E, N, K]⟩ : Shape) (⟨3, ![E, M, N]⟩ : Shape)) (hd : BatchTransDot d)
    (prec : Option ContractPrecision) (sched : HostSchedule)
    (lhs : FVec Ideal ⟨3, ![E, M, K]⟩ φ₁) (rhs : FVec Ideal ⟨3, ![E, N, K]⟩ φ₂) (e : Fin E) (p : Fin M) (n : Fin N) :
    FloatOps.dotGeneral d prec sched lhs rhs (ix3 e p n) = ∑ k : Fin K, lhs (ix3 e p k) * rhs (ix3 e n k) :=
  (Ideal.dotGeneral_apply d prec sched lhs rhs (ix3 e p n)).trans (sum_contr_batch_trans_eq d hd lhs rhs (ix3 e p n))

/-- The same for the host program's `dot_general` of one device's data. -/
theorem hostDotGeneral_batch_trans_apply {φ₁ φ₂ : FTy}
    (d : DotDims (⟨3, ![E, M, K]⟩ : Shape) (⟨3, ![E, N, K]⟩ : Shape) (⟨3, ![E, M, N]⟩ : Shape)) (hd : BatchTransDot d)
    (prec : Option ContractPrecision)
    (lhs : FVec Ideal ⟨3, ![E, M, K]⟩ φ₁) (rhs : FVec Ideal ⟨3, ![E, N, K]⟩ φ₂) (e : Fin E) (p : Fin M) (n : Fin N) :
    Host.dotGeneral d prec lhs rhs (ix3 e p n) = ∑ k : Fin K, lhs (ix3 e p k) * rhs (ix3 e n k) :=
  dotGeneral_batch_trans_apply d hd prec .single lhs rhs e p n

end Cert.Lib.BatchTransDot

end
-- ==== Proof.RefFfn.lean ====
/-
  The reference's batched expert stage, read at one element, is the feed-forward network of the specification.

  At expert `e`, token slot `c` and output feature `g` the composed term `refFFN` is a product of two factors. The
  second is a batched product of the squared rectified hidden layer with the value stack; the hidden layer itself is a
  batched product of the dispatched tokens with the key stack, rectified against a broadcast zero. The first is
  `1 / (1 + exp (-z))` at the batched product `z` of the tokens with the receptance stack, which is the logistic function
  by definition. Each of the three batched products contracts the last axis of both operands within the expert's batch
  entry, so at an element it is an inner product of two rows (`Cert.Lib.BatchTransDot`); the elementwise operations and
  the broadcast constants read through at an index by definition, and the two constant words are the reals 0 and 1.
-/
import proofs.«150590_j69355131896109_2_alg».proof.Proof.RefFfnDef
import proofs.«150590_j69355131896109_2_alg».proof.Proof.Spec
import proofs.«150590_j69355131896109_2_alg».proof.Proof.LibBatchTransDot
import Idealize.ShloMosaic.Lib.ValueIdx
import Idealize.ShloMosaic.PureOps.Ideal.Laws

noncomputable section

open scoped BigOperators

namespace Cert.Moe.RefFfn

open Idealize.ShloMosaic Idealize.ShloMosaic.ValueIdx Cert.ReferenceIdeal Cert.ReferenceIdeal.Gen Cert.Lib.BatchTransDot

/-! ## The three products' dimension numbers -/

/-- Tokens `[64, 512, 512]` against keys `[64, 1792, 512]`: batch axis 0, contract axis 2 of both. -/
theorem btd_key : BatchTransDot (E := 64) (M := 512) (K := 512) (N := 1792)
    dot_S64x512x512_S64x1792x512_S64x512x1792_2_2_1_1_0_0 where
  hr := rfl
  hs := rfl
  l0 := fun _ _ => rfl
  l1 := fun _ _ => rfl
  l2 := fun _ _ => rfl
  r0 := fun _ _ => rfl
  r1 := fun _ _ => rfl
  r2 := fun _ _ => rfl

/-- Squared hidden layer `[64, 512, 1792]` against values `[64, 512, 1792]`: batch axis 0, contract axis 2 of both. -/
theorem btd_value : BatchTransDot (E := 64) (M := 512) (K := 1792) (N := 512)
    dot_S64x512x1792_S64x512x1792_S64x512x512_2_2_1_1_0_0 where
  hr := rfl
  hs := rfl
  l0 := fun _ _ => rfl
  l1 := fun _ _ => rfl
  l2 := fun _ _ => rfl
  r0 := fun _ _ => rfl
  r1 := fun _ _ => rfl
  r2 := fun _ _ => rfl

/-- Tokens `[64, 512, 512]` against receptances `[64, 512, 512]`: batch axis 0, contract axis 2 of both. -/
theorem btd_recept : BatchTransDot (E := 64) (M := 512) (K := 512) (N := 512)
    dot_S64x512x512_S64x512x512_S64x512x512_2_2_1_1_0_0 where
  hr := rfl
  hs := rfl
  l0 := fun _ _ => rfl
  l1 := fun _ _ => rfl
  l2 := fun _ _ => rfl
  r0 := fun _ _ => rfl
  r1 := fun _ _ => rfl
  r2 := fun _ _ => rfl

/-! ## The two constant words -/

/-- The word `0x3F800000` has sign bit 0, exponent field 127 and fraction 0: it denotes `2²³ · 2^(127 - 127 - 23) = 1`. -/
theorem ofBits_one_f32 : Ideal.ofBits .f32 0x3F800000#32 = 1 := by
  simp [Ideal.ofBits, Ideal.ieee]
  rw [← EReal.coe_mul, ← EReal.coe_one]
  norm_num

/-! ## The hidden layer -/

/-- The reference's rectified hidden layer: the batched product of tokens and keys, maximised against a broadcast zero. -/
def refHidden (disp : FVec Ideal S64x512x512 .f32) (Wk : FVec Ideal S64x1792x512 .f32) : FVec Ideal S64x512x1792 .f32 :=
  maximumf (Host.dotGeneral dot_S64x512x512_S64x1792x512_S64x512x1792_2_2_1_1_0_0 none disp Wk)
    (broadcastInDim S64x512x1792 ![] bcast_S_S64x512x1792 (constant (F := Ideal) S_ .f32 0x00000000#32))

/-- At expert `e`, slot `c` and hidden unit `f` it is `max (∑ₖ disp (e, c, k) · Wk (e, f, k)) 0`: the maximum reads
    through at an index, the broadcast of the scalar constant reads the constant's one value, the word 0 is the real 0,
    and the batched product is the inner product of the two rows. -/
theorem refHidden_apply (disp : FVec Ideal S64x512x512 .f32) (Wk : FVec Ideal S64x1792x512 .f32)
    (e : Fin 64) (c : Fin 512) (f : Fin 1792) :
    refHidden disp Wk (ix3 e c f) = Cert.Moe.hidden (fun k => disp (ix3 e c k)) (fun f' k => Wk (ix3 e f' k)) f := by
  show max (Host.dotGeneral dot_S64x512x512_S64x1792x512_S64x512x1792_2_2_1_1_0_0 none disp Wk (ix3 e c f))
      (Ideal.ofBits .f32 0x00000000#32) = _
  rw [hostDotGeneral_batch_trans_apply _ btd_key, Ideal.ofBits_zero_f32]
  rfl

/-! ## The expert stage at an element -/

/-- The reference's expert stage at expert `e`, slot `c`, feature `g` is the specification's network on the token row
    `disp (e, c, ·)` with expert `e`'s three weight matrices. The gate `1 / (1 + exp (-z))` is the logistic function of
    `z` by definition, and `z` is the inner product of the token row with receptance row `g`; the other factor is the
    inner product of the squared hidden layer with value row `g`. -/
theorem refFFN_apply (disp : FVec Ideal Cert.ReferenceIdeal.S64x512x512 .f32)
    (Wk : FVec Ideal Cert.ReferenceIdeal.S64x1792x512 .f32) (Wr : FVec Ideal Cert.ReferenceIdeal.S64x512x512 .f32)
    (Wv : FVec Ideal Cert.ReferenceIdeal.S64x512x1792 .f32) (e : Fin 64) (c g : Fin 512) :
    Cert.Moe.refFFN disp Wk Wr Wv (ix3 e c g)
      = Cert.Moe.ffn (fun k => disp (ix3 e c k)) (fun f k => Wk (ix3 e f k)) (fun g' k => Wr (ix3 e g' k))
          (fun g' f => Wv (ix3 e g' f)) g := by
  show Ideal.div (Ideal.ofBits .f32 0x3F800000#32)
        (Ideal.ofBits .f32 0x3F800000#32
          + Ideal.exp (-(Host.dotGeneral dot_S64x512x512_S64x512x512_S64x512x512_2_2_1_1_0_0 none disp Wr (ix3 e c g))))
      * Host.dotGeneral dot_S64x512x1792_S64x512x1792_S64x512x512_2_2_1_1_0_0 none
          (mulf (refHidden disp Wk) (refHidden disp Wk)) Wv (ix3 e c g) = _
  rw [ofBits_one_f32, hostDotGeneral_batch_trans_apply _ btd_recept, hostDotGeneral_batch_trans_apply _ btd_value]
  refine congrArg₂ (· * ·) rfl (Finset.sum_congr rfl fun f _ => ?_)
  show (refHidden disp Wk (ix3 e c f) * refHidden disp Wk (ix3 e c f)) * Wv (ix3 e g f) = _
  rw [refHidden_apply]

end Cert.Moe.RefFfn

end
-- ==== Proof.Bridge.lean ====
/-
  The kernel program's result is the reference's.

  The kernel's program routes the tokens on the host, runs the experts' stage in its region, and combines on the host; the
  reference does all three on the host. From memories that agree on the five argument arrays: the routing leaves the same
  dispatched array, expert index, slot and mask in both (the same operations of the same values); the region leaves the
  experts' outputs of the dispatched array and the weight stacks, which is what the reference's three batched products,
  rectifier, square and gate compute, entry by entry (both are one expert's network on one token row); and the combination
  is again the same operations of equal values. So the kernel's result array is the fold of the reference's operations
  over the reference's memory, read at the reference's result.
-/
import proofs.«150590_j69355131896109_2_alg».proof.Proof.Folds
import proofs.«150590_j69355131896109_2_alg».proof.Proof.KernelArray
import proofs.«150590_j69355131896109_2_alg».proof.Proof.RefFfn
import proofs.«150590_j69355131896109_2_alg».proof.Proof.RefKeep
import Idealize.ShloMosaic.Lib.Pipeline.FrameSuffix

set_option maxRecDepth 16384

noncomputable section

namespace Cert.Moe.Bridge

open Idealize.ShloMosaic Idealize.ShloMosaic.TcCoe Idealize.ShloMosaic.StableHlo Idealize.ShloMosaic.ValueIdx Idealize.SL.Sem

/-- The reference's batched expert stage is the experts' outputs, entry by entry. -/
theorem refFFN_eq (disp : FVec Ideal Cert.ReferenceIdeal.S64x512x512 .f32) (Wk : FVec Ideal Cert.ReferenceIdeal.S64x1792x512 .f32)
    (Wr : FVec Ideal Cert.ReferenceIdeal.S64x512x512 .f32) (Wv : FVec Ideal Cert.ReferenceIdeal.S64x512x1792 .f32) :
    refFFN disp Wk Wr Wv = expertsOut disp Wk Wr Wv := by
  funext i
  rw [eq_ix3 i]
  exact RefFfn.refFFN_apply disp Wk Wr Wv (i 0) (i 1) (i 2)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

/-- The kernel program's buffers when its region is entered: the fold of its routing over the launch memory. -/
theorem entry_eq (b : Ref Cert.KernelIdeal.sig .tc) :
    Cert.KernelIdeal.Gen.V m c b = after (Cert.KernelIdeal.Gen.hostOps0 (F := Ideal)) (launchContents m c) (Proc.devRef .tc b) := rfl

include h0 h1 in
/-- The dispatched array the region finds is the one the reference's routing leaves. -/
theorem dispatched :
    Cert.KernelIdeal.Gen.V m c (Pipeline.arrRef Cert.KernelIdeal.spec0 0)
      = after (RefRun.opsA (F := Ideal)) (launchContents m' c) (Proc.devRef .tc Cert.ReferenceIdeal.main_v27) :=
  (entry_eq m c Cert.KernelIdeal.main_call0_v27).trans
    (Folds.dispatched_eq (launchContents m c) (launchContents m' c) _ _ rfl rfl h1 h0)

include h2 in
theorem keys :
    Cert.KernelIdeal.Gen.V m c (Pipeline.arrRef Cert.KernelIdeal.spec0 1)
      = after (RefRun.opsA (F := Ideal)) (launchContents m' c) (Proc.devRef .tc Cert.ReferenceIdeal.main_arg2) :=
  (Cert.KernelIdeal.Gen.V_main_arg2 m c).trans (h2.symm.trans (Folds.routing_keeps_wk (launchContents m' c)).symm)

include h3 in
theorem recepts :
    Cert.KernelIdeal.Gen.V m c (Pipeline.arrRef Cert.KernelIdeal.spec0 2)
      = after (RefRun.opsA (F := Ideal)) (launchContents m' c) (Proc.devRef .tc Cert.ReferenceIdeal.main_arg3) :=
  (Cert.KernelIdeal.Gen.V_main_arg3 m c).trans (h3.symm.trans (Folds.routing_keeps_wr (launchContents m' c)).symm)

include h4 in
theorem values :
    Cert.KernelIdeal.Gen.V m c (Pipeline.arrRef Cert.KernelIdeal.spec0 3)
      = after (RefRun.opsA (F := Ideal)) (launchContents m' c) (Proc.devRef .tc Cert.ReferenceIdeal.main_arg4) :=
  (Cert.KernelIdeal.Gen.V_main_arg4 m c).trans (h4.symm.trans (Folds.routing_keeps_wv (launchContents m' c)).symm)

/-- The kernel program's buffers when the combination starts: the region's arrays as it leaves them, the rest as at its entry. -/
abbrev afterRegion : Valuation Cert.KernelIdeal.τ Cert.KernelIdeal.sig (Elt Ideal) :=
  Pipeline.withArrays Cert.KernelIdeal.spec0 c (Cert.KernelIdeal.Gen.V0 m c) fun w => (Cert.KernelIdeal.Gen.dats m 0 c).arrAt w Cert.KernelIdeal.cfg0.N

include h0 h1 h2 h3 h4 in
/-- The experts' outputs: what the region leaves is what the reference's experts' stage leaves. -/
theorem outputs :
    afterRegion m c (Proc.devRef .tc Cert.KernelIdeal.main_call0_v28)
      = after (RefRun.opsB (F := Ideal)) (after RefRun.opsA (launchContents m' c)) (Proc.devRef .tc Cert.ReferenceIdeal.main_v39) := by
  refine (Pipeline.withArrays_arr Cert.KernelIdeal.spec0 Cert.KernelIdeal.Gen.launch0.win.arr_inj c _ _ 4).trans ?_
  rw [KernelArray.final, Folds.experts_eq, refFFN_eq, dispatched m m' c h0 h1, keys m m' c h2, recepts m m' c h3, values m m' c h4]

include h0 h1 in
theorem experts :
    afterRegion m c (Proc.devRef .tc Cert.KernelIdeal.main_call0_v2)
      = after (RefRun.opsB (F := Ideal)) (after RefRun.opsA (launchContents m' c)) (Proc.devRef .tc Cert.ReferenceIdeal.main_v2) :=
  (Pipeline.withArrays_of_ne Cert.KernelIdeal.spec0 c _ _ Cert.KernelIdeal.main_call0_v2 (by decide)).trans
    ((Folds.expert_eq (launchContents m c) (launchContents m' c) _ _ rfl rfl h1 h0).trans (Folds.experts_keep_expert _).symm)

include h0 h1 in
theorem slots :
    afterRegion m c (Proc.devRef .tc Cert.KernelIdeal.main_call0_v8)
      = after (RefRun.opsB (F := Ideal)) (after RefRun.opsA (launchContents m' c)) (Proc.devRef .tc Cert.ReferenceIdeal.main_v8) :=
  (Pipeline.withArrays_of_ne Cert.KernelIdeal.spec0 c _ _ Cert.KernelIdeal.main_call0_v8 (by decide)).trans
    ((Folds.slot_eq (launchContents m c) (launchContents m' c) _ _ rfl rfl h1 h0).trans (Folds.experts_keep_slot _).symm)

include h0 h1 in
theorem masks :
    afterRegion m c (Proc.devRef .tc Cert.KernelIdeal.main_call0_v10)
      = after (RefRun.opsB (F := Ideal)) (after RefRun.opsA (launchContents m' c)) (Proc.devRef .tc Cert.ReferenceIdeal.main_v10) :=
  (Pipeline.withArrays_of_ne Cert.KernelIdeal.spec0 c _ _ Cert.KernelIdeal.main_call0_v10 (by decide)).trans
    ((Folds.kept_eq (launchContents m c) (launchContents m' c) _ _ rfl rfl h1 h0).trans (Folds.experts_keep_kept _).symm)

include h0 h1 h2 h3 h4 in
/-- THE RESULT: what the kernel program's combination leaves at its result is the reference's fold at the reference's result. -/
theorem result :
    Pipeline.afterTail₀ Cert.KernelIdeal.cfgs (Cert.KernelIdeal.Gen.dats m) 0 (Cert.KernelIdeal.Gen.V0 m) [Cert.KernelIdeal.Gen.hostOps1] c Cert.KernelIdeal.main_v0
      = after (RefRun.ops (F := Ideal)) (launchContents m' c) (Proc.devRef .tc Cert.ReferenceIdeal.main_v60) := by
  rw [RefRun.after_ops]
  show after (Cert.KernelIdeal.Gen.hostOps1 (F := Ideal)) (afterRegion m c) (Proc.devRef .tc Cert.KernelIdeal.main_v0) = _
  exact Folds.combined_eq (afterRegion m c) (after RefRun.opsB (after RefRun.opsA (launchContents m' c))) _ _ _ _
    (outputs m m' c h0 h1 h2 h3 h4) rfl (experts m m' c h0 h1) rfl (slots m m' c h0 h1) rfl (masks m m' c h0 h1) rfl

end Cert.Moe.Bridge

end
-- ==== Proof.lean ====
/-
  The certificate of a hash-routed mixture-of-experts layer: the kernel program against its reference, over the extended reals.

  Both programs route 32768 tokens to 64 experts by a hash of the token id, keep the first 512 tokens of each expert,
  scatter the kept token rows into a dispatched array [64, 512, 512], apply every expert's feed-forward network to its 512
  slots, and let each token gather its slot's output row, zeroed if the token was dropped. The kernel program runs the
  experts' stage as a region of 64 grid points, one expert each: it reads the expert's block of dispatched rows and its
  three weight matrices and writes the block of outputs. The reference runs the same stage as three batched products.

  At the extended reals a change of float format is the identity, so the region's body computes, for a token row `d` of
  expert `e`, `logistic (d · Wr[e] g) * Σ_f (max (d · Wk[e] f) 0)² * Wv[e] g f` — the same sums of the same products, in the
  same order of factors, as the reference's batched products followed by its rectifier, square and gate spelt
  `1 / (1 + exp (-z))`, which is the logistic function by definition. No law of arithmetic beyond re-indexing a sum is
  used, so the precondition (finite inputs) is never opened. Routing and combination are the same host operations in both
  programs and are compared as folds, never opened.

  `frame_Kernel` and `frame_KernelIdeal` are the generated frame runs; `frame_ReferenceIdeal` is the reference's run with the
  result dropped; `preserves` has no entry.
-/
import proofs.«150590_j69355131896109_2_alg».proof.Defs
import proofs.«150590_j69355131896109_2_alg».proof.Proof.Gen.Kernel
import proofs.«150590_j69355131896109_2_alg».proof.Proof.Gen.Kernel.Frame
import proofs.«150590_j69355131896109_2_alg».proof.Proof.Gen.KernelIdeal
import proofs.«150590_j69355131896109_2_alg».proof.Proof.Gen.KernelIdeal.Frame
import proofs.«150590_j69355131896109_2_alg».proof.Proof.Gen.ReferenceIdeal
import proofs.«150590_j69355131896109_2_alg».proof.Proof.Gen.Pre_finite_inputs
import proofs.«150590_j69355131896109_2_alg».proof.Proof.RefRun
import proofs.«150590_j69355131896109_2_alg».proof.Proof.RefKeep
import proofs.«150590_j69355131896109_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run with the result dropped: its operations write none of its arguments. -/
theorem frame_ri : Cert.frame_ReferenceIdeal := fun m ρ _ =>
  (θ_run Cert.ReferenceIdeal.defs _ _).mono (fun _ h c =>
    ⟨(h c Cert.ReferenceIdeal.main_arg0).trans (Cert.Moe.RefRun.keep_arg0 _), (h c Cert.ReferenceIdeal.main_arg1).trans (Cert.Moe.RefRun.keep_arg1 _),
      (h c Cert.ReferenceIdeal.main_arg2).trans (Cert.Moe.RefRun.keep_arg2 _), (h c Cert.ReferenceIdeal.main_arg3).trans (Cert.Moe.RefRun.keep_arg3 _),
      (h c Cert.ReferenceIdeal.main_arg4).trans (Cert.Moe.RefRun.keep_arg4 _)⟩)
    (Cert.Moe.RefRun.run_main (F := Ideal) m ρ)

theorem preserves : Cert.preserves_Kernel_KernelIdeal := trivial

/-- Both programs end with the reference's fold at its result: the reference by its run, the kernel program by its frame run
    (whose post names the result after the host operations that follow the region) and the bridge. -/
theorem algebraic : Cert.algebraic_KernelIdeal_ReferenceIdeal := by
  intro m ρ m' ρ' _ hagree
  refine ⟨fun c => after (Cert.Moe.RefRun.ops (F := Ideal)) (launchContents m' c) (Proc.devRef .tc Cert.ReferenceIdeal.main_v60), ?_, ?_⟩
  · refine (θ_run Cert.KernelIdeal.defs _ _).mono (fun r h c => ⟨?_, ?_, ?_, ?_, ?_, ?_⟩) (Cert.KernelIdeal.Gen.run_main m ρ)
    · exact ((h c).2 Cert.KernelIdeal.main_v0 (Pipeline.mem_restRefs_of Cert.KernelIdeal.main_v0 (by decide) (by decide))).trans
        (Cert.Moe.Bridge.result m m' c (hagree c).1 (hagree c).2.1 (hagree c).2.2.1 (hagree c).2.2.2.1 (hagree c).2.2.2.2)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).1 1).trans (((Cert.KernelIdeal.Gen.dats m 0 c).arrAt_in 1 rfl _).trans ((Cert.KernelIdeal.Gen.A_eq m c 1).trans (Cert.KernelIdeal.Gen.V_main_arg2 m c)))
    · exact ((h c).1 2).trans (((Cert.KernelIdeal.Gen.dats m 0 c).arrAt_in 2 rfl _).trans ((Cert.KernelIdeal.Gen.A_eq m c 2).trans (Cert.KernelIdeal.Gen.V_main_arg3 m c)))
    · exact ((h c).1 3).trans (((Cert.KernelIdeal.Gen.dats m 0 c).arrAt_in 3 rfl _).trans ((Cert.KernelIdeal.Gen.A_eq m c 3).trans (Cert.KernelIdeal.Gen.V_main_arg4 m c)))
  · exact (θ_run Cert.ReferenceIdeal.defs _ _).mono (fun _ h c =>
      ⟨h c Cert.ReferenceIdeal.main_v60, (h c Cert.ReferenceIdeal.main_arg0).trans (Cert.Moe.RefRun.keep_arg0 _), (h c Cert.ReferenceIdeal.main_arg1).trans (Cert.Moe.RefRun.keep_arg1 _),
        (h c Cert.ReferenceIdeal.main_arg2).trans (Cert.Moe.RefRun.keep_arg2 _), (h c Cert.ReferenceIdeal.main_arg3).trans (Cert.Moe.RefRun.keep_arg3 _),
        (h c Cert.ReferenceIdeal.main_arg4).trans (Cert.Moe.RefRun.keep_arg4 _)⟩)
      (Cert.Moe.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
